-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x1 .f32) (main_arg1 : IVec S2x3200000 32) (main_arg2 : FVec F S1x16 .f32) (main_arg3 : FVec F S16 .f32) (main_arg4 : FVec F S16x2 .f32) (main_arg5 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S5000x1 : Shape := ⟨2, ![5000, 1]⟩
abbrev S100000x16 : Shape := ⟨2, ![100000, 16]⟩
abbrev S5000x16 : Shape := ⟨2, ![5000, 16]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩

abbrev nBuf : Space → Nat
  | .hbm => 53
  | .vmem => 30
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000x1, .f32⟩
  | .hbm, ⟨20, _⟩ => ⟨S100000x1, .f32⟩
  | .hbm, ⟨21, _⟩ => ⟨S100000x1, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000x1, .f32⟩
  | .hbm, ⟨31, _⟩ => ⟨S_, .f32⟩
  | .hbm, ⟨32, _⟩ => ⟨S100000x1, .f32⟩
  | .hbm, ⟨33, _⟩ => ⟨S3300000x1, .i32⟩
  | .hbm, ⟨34, _⟩ => ⟨S100000x1, .f32⟩
  | .hbm, ⟨35, _⟩ => ⟨S1x16, .f32⟩
  | .hbm, ⟨36, _⟩ => ⟨S100000x16, .f32⟩
  | .hbm, ⟨37, _⟩ => ⟨S100000x2, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000x2, .f32⟩
  | .hbm, ⟨47, _⟩ => ⟨S_, .f32⟩
  | .hbm, ⟨48, _⟩ => ⟨S100000x2, .f32⟩
  | .hbm, ⟨49, _⟩ => ⟨S3300000x1, .i32⟩
  | .hbm, ⟨50, _⟩ => ⟨S100000x2, .f32⟩
  | .hbm, ⟨51, _⟩ => ⟨S1x2, .f32⟩
  | .hbm, ⟨52, _⟩ => ⟨S100000x2, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S1x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x1, .f32⟩
  | .local _ .vmem, ⟨19, _⟩ => ⟨S5000x1, .f32⟩
  | .local _ .vmem, ⟨20, _⟩ => ⟨S16x2, .f32⟩
  | .local _ .vmem, ⟨21, _⟩ => ⟨S5000x2, .f32⟩
  | .local _ .vmem, ⟨22, _⟩ => ⟨S5000x2, .f32⟩
  | .local _ .vmem, ⟨23, _⟩ => ⟨S5000x2, .f32⟩
  | .local _ .vmem, ⟨24, _⟩ => ⟨S5000x2, .f32⟩
  | .local _ .vmem, ⟨25, _⟩ => ⟨S5000x1, .f32⟩
  | .local _ .vmem, ⟨26, _⟩ => ⟨S5000x1, .f32⟩
  | .local _ .vmem, ⟨27, _⟩ => ⟨S1x2, .f32⟩
  | .local _ .vmem, ⟨28, _⟩ => ⟨S5000x2, .f32⟩
  | .local _ .vmem, ⟨29, _⟩ => ⟨S5000x2, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  bcast_S_S100000x1 : S_.BroadcastsInDim S100000x1 (![] : Fin 0 → Fin S100000x1.rank)
  shapeCasts_S16_S1x16 : S16.ShapeCasts S1x16
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x2_S16x2_0_0 : ∀ a, (![0, 0] : Fin 2 → Nat) a + S16x2.size a ≤ S16x2.size a
  h_S16x2 : 0 < S16x2.numel
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S100000_S3300000x1_S3300000_n_0_0_1_wf : ScatterDims.WF S100000 S3300000x1 S3300000 [] [0] [0] 1
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  dot_S5000x1_S1x16_S5000x16_1_0_0_1_n_n_wf : DotDims.WF S5000x1 S1x16 S5000x16 [1] [0] [0] [1] [] []
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .f32 = 32 ∨ (Rect.block (s := S100000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x2.size a ≤ S16x2.size a
  hwx2_2 : ∀ i : grid2.Coords, EltTy.bits .f32 = 32 ∨ (Rect.block (s := S16x2) S16x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x2.size a ≤ S100000x2.size a
  hwx3_3 : ∀ i : grid3.Coords, EltTy.bits .f32 = 32 ∨ (Rect.block (s := S100000x2) S5000x2.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def dot_S5000x1_S1x16_S5000x16_1_0_0_1_n_n : DotDims S5000x1 S1x16 S5000x16 where
  lhsContracting := [1]
  rhsContracting := [0]
  lhsNonContracting := [0]
  rhsNonContracting := [1]
  lhsBatch := []
  rhsBatch := []
  wf := dot_S5000x1_S1x16_S5000x16_1_0_0_1_n_n_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_v11) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12_0) S5000x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_1) S5000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_0) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S16x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12_0) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S5000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 128
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S_, .f32⟩
  | .hbm, ⟨73, _⟩ => ⟨S3300000, .f32⟩
  | .hbm, ⟨74, _⟩ => ⟨S_, .f32⟩
  | .hbm, ⟨75, _⟩ => ⟨S100000, .f32⟩
  | .hbm, ⟨76, _⟩ => ⟨S3300000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000, .f32⟩
  | .hbm, ⟨98, _⟩ => ⟨S_, .i32⟩
  | .hbm, ⟨99, _⟩ => ⟨S3300000, .i32⟩
  | .hbm, ⟨100, _⟩ => ⟨S3300000, .i1⟩
  | .hbm, ⟨101, _⟩ => ⟨S_, .i32⟩
  | .hbm, ⟨102, _⟩ => ⟨S3300000, .i32⟩
  | .hbm, ⟨103, _⟩ => ⟨S3300000, .i32⟩
  | .hbm, ⟨104, _⟩ => ⟨S3300000, .i32⟩
  | .hbm, ⟨105, _⟩ => ⟨S3300000x1, .i32⟩
  | .hbm, ⟨106, _⟩ => ⟨S3300000, .f32⟩
  | .hbm, ⟨107, _⟩ => ⟨S3300000, .f32⟩
  | .hbm, ⟨108, _⟩ => ⟨S100000x2, .f32⟩
  | .hbm, ⟨109, _⟩ => ⟨S3300000x1, .f32⟩
  | .hbm, ⟨110, _⟩ => ⟨S_, .i32⟩
  | .hbm, ⟨111, _⟩ => ⟨S3300000, .i32⟩
  | .hbm, ⟨112, _⟩ => ⟨S3300000, .i1⟩
  | .hbm, ⟨113, _⟩ => ⟨S_, .i32⟩
  | .hbm, ⟨114, _⟩ => ⟨S3300000, .i32⟩
  | .hbm, ⟨115, _⟩ => ⟨S3300000, .i32⟩
  | .hbm, ⟨116, _⟩ => ⟨S3300000, .i32⟩
  | .hbm, ⟨117, _⟩ => ⟨S3300000x1, .i32⟩
  | .hbm, ⟨118, _⟩ => ⟨S3300000x2, .f32⟩
  | .hbm, ⟨119, _⟩ => ⟨S3300000x2, .f32⟩
  | .hbm, ⟨120, _⟩ => ⟨S3300000x2, .f32⟩
  | .hbm, ⟨121, _⟩ => ⟨S_, .f32⟩
  | .hbm, ⟨122, _⟩ => ⟨S100000x2, .f32⟩
  | .hbm, ⟨123, _⟩ => ⟨S3300000x1, .i32⟩
  | .hbm, ⟨124, _⟩ => ⟨S100000x2, .f32⟩
  | .hbm, ⟨125, _⟩ => ⟨S1x2, .f32⟩
  | .hbm, ⟨126, _⟩ => ⟨S100000x2, .f32⟩
  | .hbm, ⟨127, _⟩ => ⟨S100000x2, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_c_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_17 : Ref sig .tc := ⟨.hbm, 98, rfl⟩
abbrev main_v67 : Ref sig .tc := ⟨.hbm, 99, rfl⟩
abbrev main_v68 : Ref sig .tc := ⟨.hbm, 100, rfl⟩
abbrev main_c_18 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1_S1x16_S100000x16_1_0_0_1_n_n_wf : DotDims.WF S100000x1 S1x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KRun.lean ====
/-
  The kernel program's run with its result named.

  The frame theorem of the program of four pipelined regions among host operations states that every weakly fair
  execution terminates, without a fault, with the six argument arrays as launched. Its proof establishes more: every
  unscoped buffer ends at the last boundary's contents `W7`. This module states the same run with the result array
  among the buffers read off that final state: the result ends at `W7` of its buffer, which the value proof then opens
  region by region.
-/
import proofs.«165192_j47605417509108_2_alg».proof.Proof.Gen.KernelIdeal.Frame

-- membership in a rectangle of production extents (`View.cover_of_tiled`): the elaborator's structural look
-- recurses once per coordinate of the long axes
set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents and the argument arrays as launched. -/
theorem run_value : θ_run defs (onTc (τ := τ) (main (F := F))) ⟨m, fun _ => 0, ρ⟩ (fun r => ∀ c : Dev nD,
      r.2.mem ((c.tc : Thread nD τ).loc main_v37) = W7 m ρ c (Proc.devRef .tc main_v37) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v37 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.KRegion0.lean ====
/-
  Region 0 as whole-array functions.

  The first pipelined region walks the 100000 nodes in 20 blocks of 5000 rows. From the degree column deg and the
  feature column x it writes two columns: d = 1/sqrt(max(deg, 1)) where deg > 0 and 0 elsewhere, and y = d · x.
  Both are pointwise in the row, so block t of each result is the same function of block t of the operands, and the 20
  blocks tile the arrays: after the region the two arrays hold `dinvCol deg` and `scaledCol deg x` whole.
-/
import proofs.«165192_j47605417509108_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The inverse square root of a degree, zero at degree zero: 1/sqrt(max(x, 1)) where x > 0, else 0. -/
def dinvOf (x : EReal) : EReal :=
  Scalar.select (Ideal.cmp .ogt x (Ideal.ofBits .f32 0x00000000#32))
    (Ideal.rsqrt (max x (Ideal.ofBits .f32 0x3F800000#32))) (Ideal.ofBits .f32 0x00000000#32)

/-- The column of inverse square roots of the degrees. -/
def dinvCol (deg : S100000x1.Idx → EReal) : S100000x1.Idx → EReal := fun i => dinvOf (deg i)
/-- The feature column scaled by it. -/
def scaledCol (deg x : S100000x1.Idx → EReal) : S100000x1.Idx → EReal := fun i => dinvOf (deg i) * x i

/-- The body's first stored value, entry by entry. -/
theorem pay1_apply (x0 : Vec Ideal S5000x1 .f32) (y : S5000x1.Idx) : k0_pay1 (F := Ideal) x0 y = dinvOf (x0 y) := by
  unfold k0_pay1
  simp only [shapeCast_self]
  rfl

/-- The body's second stored value, entry by entry. -/
theorem pay2_apply (x0 x1 : Vec Ideal S5000x1 .f32) (y : S5000x1.Idx) :
    k0_pay2 (F := Ideal) x0 x1 y = dinvOf (x0 y) * x1 y := by
  unfold k0_pay2
  show k0_pay1 (F := Ideal) x0 y * x1 y = _
  rw [pay1_apply]

/-- The printed index maps over the grid: at point t every window is at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row is some point's. -/
theorem idx_onto2 : ∀ q : Fin 20, ∃ t : Fin cfg0.N, win0_2.index t = ![q.val, 0] :=
  (by decide +kernel : ∀ q : Fin 20, ∃ t : Fin grid0.N, win0_2.index t = ![q.val, 0])
theorem idx_onto3 : ∀ q : Fin 20, ∃ t : Fin cfg0.N, win0_3.index t = ![q.val, 0] :=
  (by decide +kernel : ∀ q : Fin 20, ∃ t : Fin grid0.N, win0_3.index t = ![q.val, 0])

/-! ## The column d -/

/-- What point t writes back to d is block t of `dinvCol` of the degree column as the region finds it. -/
theorem flushed2_eq (c : Dev nD) (t : Fin cfg0.N) :
    (dat0 V c).flushed 2 t = ((cfg0.win 2).blk t).view.read (Elt Ideal) (dinvCol (V c main_v11)) := by
  show (cfg0.win 2).cut (grid0.coords t) ((dat0 V c).after 2 t) = _
  rw [after0_2]
  unfold out0_2
  rw [View.canon_unit_zero hz]
  simp only [View.ld_unit_zero (S := S5000x1) hz]
  obtain ⟨e0, e1, e2, e3, e4, e5, e6, e7⟩ := idx_facts t
  funext j
  show k0_pay1 (F := Ideal) (iblk0 V c 0 t) j = dinvOf (V c main_v11 (((cfg0.win 2).blk t).view.emb j))
  rw [pay1_apply]
  show dinvOf (V c main_v11 (((cfg0.win 0).blk t).view.emb j)) = _
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 1 + 1 * (j 1).val = win0_2.index t (1 : Fin 2) * 1 + 1 * (j 1).val; omega
  rw [h0]

theorem mem_blk2 (t : Fin cfg0.N) (i : S100000x1.Idx) :
    i ∈ ((cfg0.win 2).blk t).view.set ↔ ∀ a : Fin 2, win0_2.index t a * S5000x1.size a ≤ (i a).val ∧ (i a).val < win0_2.index t a * S5000x1.size a + S5000x1.size a := by
  show i ∈ ((View.whole main_v12_0).slice (win0_2.rect t)).set ↔ _
  rw [View.set_slice_whole, Rect.mem_set_unit]
  exact Iff.rfl

/-- The 20 blocks cover the column: row r is in block r / 5000. -/
theorem cover2 (i : S100000x1.Idx) : ∃ t : Fin cfg0.N, (cfg0.win 2).flush t = true ∧ i ∈ ((cfg0.win 2).blk t).view.set := by
  have hi0 : (i 0).val < 100000 := (i 0).isLt
  have hi1 : (i 1).val < 1 := (i 1).isLt
  obtain ⟨t, ht⟩ := idx_onto2 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 1 ≤ (i 1).val ∧ (i 1).val < win0_2.index t (1 : Fin 2) * 1 + 1; omega

/-- After the region the array d holds `dinvCol` of the degree column. -/
theorem final2 (c : Dev nD) : (dat0 V c).arrAt 2 cfg0.N = dinvCol (V c main_v11) :=
  (dat0 V c).arrAt_eq_of_cover 2 _ (fun t _ => flushed2_eq V c t) cover2

/-! ## The column y -/

/-- What point t writes back to y is block t of `scaledCol` of the degree and feature columns as the region finds them. -/
theorem flushed3_eq (c : Dev nD) (t : Fin cfg0.N) :
    (dat0 V c).flushed 3 t = ((cfg0.win 3).blk t).view.read (Elt Ideal) (scaledCol (V c main_v11) (V c main_arg0)) := by
  show (cfg0.win 3).cut (grid0.coords t) ((dat0 V c).after 3 t) = _
  rw [after0_3]
  unfold out0_3
  rw [View.canon_unit_zero hz]
  simp only [View.ld_unit_zero (S := S5000x1) hz]
  obtain ⟨e0, e1, e2, e3, e4, e5, e6, e7⟩ := idx_facts t
  funext j
  show k0_pay2 (F := Ideal) (iblk0 V c 0 t) (iblk0 V c 1 t) j
    = dinvOf (V c main_v11 (((cfg0.win 3).blk t).view.emb j)) * V c main_arg0 (((cfg0.win 3).blk t).view.emb j)
  rw [pay2_apply]
  show dinvOf (V c main_v11 (((cfg0.win 0).blk t).view.emb j)) * V c main_arg0 (((cfg0.win 1).blk t).view.emb j) = _
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 1 + 1 * (j 1).val = win0_3.index t (1 : Fin 2) * 1 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * (j 1).val = win0_3.index t (1 : Fin 2) * 1 + 1 * (j 1).val; omega
  rw [h0, h1]

theorem mem_blk3 (t : Fin cfg0.N) (i : S100000x1.Idx) :
    i ∈ ((cfg0.win 3).blk t).view.set ↔ ∀ a : Fin 2, win0_3.index t a * S5000x1.size a ≤ (i a).val ∧ (i a).val < win0_3.index t a * S5000x1.size a + S5000x1.size a := by
  show i ∈ ((View.whole main_v12_1).slice (win0_3.rect t)).set ↔ _
  rw [View.set_slice_whole, Rect.mem_set_unit]
  exact Iff.rfl

theorem cover3 (i : S100000x1.Idx) : ∃ t : Fin cfg0.N, (cfg0.win 3).flush t = true ∧ i ∈ ((cfg0.win 3).blk t).view.set := by
  have hi0 : (i 0).val < 100000 := (i 0).isLt
  have hi1 : (i 1).val < 1 := (i 1).isLt
  obtain ⟨t, ht⟩ := idx_onto3 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 1 ≤ (i 1).val ∧ (i 1).val < win0_3.index t (1 : Fin 2) * 1 + 1; omega

/-- After the region the array y holds `scaledCol` of the degree and feature columns. -/
theorem final3 (c : Dev nD) : (dat0 V c).arrAt 3 cfg0.N = scaledCol (V c main_v11) (V c main_arg0) :=
  (dat0 V c).arrAt_eq_of_cover 3 _ (fun t _ => flushed3_eq V c t) cover3

end Cert.KernelIdeal.Region0

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowBlocks.lean ====
/-
  The rows of a blocked array.

  When an array of 100000 rows is cut in 20 blocks of 5000 rows, row p of block t is row t·5000 + p of the array.
-/
import Idealize.ShloMosaic.Lib.ValueIdx

namespace Cert.LibRowBlocks

/-- Row p of block t of an array of 20 blocks of 5000 rows. -/
def rowOf (tv : ℕ) (ht : tv < 20) (p : Fin 5000) : Fin 100000 := ⟨tv * 5000 + p.val, by have := p.isLt; omega⟩

theorem rowOf_val (tv : ℕ) (ht : tv < 20) (p : Fin 5000) : (rowOf tv ht p).val = tv * 5000 + p.val := rfl

/-- Every row of the array is a row of one block: row r is row r mod 5000 of block r / 5000. -/
theorem exists_rowOf (r : Fin 100000) : ∃ (tv : ℕ) (ht : tv < 20) (p : Fin 5000), r = rowOf tv ht p :=
  ⟨r.val / 5000, by have := r.isLt; omega, ⟨r.val % 5000, Nat.mod_lt _ (by decide)⟩, Fin.ext (by show r.val = r.val / 5000 * 5000 + r.val % 5000; omega)⟩

end Cert.LibRowBlocks
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.KRegion1.lean ====
/-
  Region 1 as a whole-array function.

  The second pipelined region walks the 100000 nodes in 20 blocks of 5000 rows. From the aggregated column
  raw : [100000, 1], the column d : [100000, 1], the weights W : [1, 16] and the bias row b : [1, 16] it writes the hidden
  layer h(r, q) = max(Σ_k (d(r) · raw(r, k)) · W(k, q) + b(q), 0): the aggregate scaled by the node's d, transformed,
  biased and rectified. On the extended reals the change of format before the product is the identity and the matrix unit's
  product into a zero accumulator is the plain sum. Row r of h depends on row r of raw and d only, so block t of h is that
  function of block t of the operands, and the 20 blocks tile the array.
-/
import proofs.«165192_j47605417509108_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«165192_j47605417509108_2_alg».proof.Proof.LibColumn
import proofs.«165192_j47605417509108_2_alg».proof.Proof.LibRowBlocks
import proofs.«165192_j47605417509108_2_alg».proof.Proof.LibMatmulAt

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.LibRowBlocks

variable (V : (c : Dev nD) → (b : Ref sig .tc) → Buf (Elt Ideal) ((c : Thread nD τ).loc b))

theorem hz : (![0, 0] : Fin 2 → Nat) = fun _ => 0 := funext fun a => by fin_cases a <;> rfl

/-- The hidden layer at row r, channel q. -/
def hiddenAt (raw d : S100000x1.Idx → EReal) (W b : S1x16.Idx → EReal) (r : Fin 100000) (q : Fin 16) : EReal :=
  max ((∑ k : Fin 1, (d (ix2 r k) * raw (ix2 r k)) * W (ix2 k q)) + b (ix2 (0 : Fin 1) q)) (Ideal.ofBits .f32 0x00000000#32)

/-- The hidden layer. -/
def hiddenArr (raw d : S100000x1.Idx → EReal) (W b : S1x16.Idx → EReal) : S100000x16.Idx → EReal :=
  fun i => hiddenAt raw d W b (i 0) (i 1)

theorem hiddenArr_apply (raw d : S100000x1.Idx → EReal) (W b : S1x16.Idx → EReal) (r : Fin 100000) (q : Fin 16) :
    hiddenArr raw d W b (ix2 r q) = hiddenAt raw d W b r q := rfl

/-- The body's stored value at (p, q) of the block. -/
theorem pay_apply (v0 v2 : Vec Ideal S5000x1 .f32) (v6 v9 : Vec Ideal S1x16 .f32) (p : Fin 5000) (q : Fin 16) :
    k1_pay1 (F := Ideal) v0 v2 v6 v9 (ix2 p q)
      = max ((∑ k : Fin 1, (v0 (ix2 p k) * v2 (ix2 p k)) * v6 (ix2 k q)) + v9 (ix2 (0 : Fin 1) q)) (Ideal.ofBits .f32 0x00000000#32) := by
  unfold k1_pay1
  simp only [shapeCast_self]
  show max (matmul dot_S5000x1_S1x16_S5000x16_1_0_0_1_n_n none (truncf .bf16 (mulf v0 v2) bitsLt_bf16_f32)
        (truncf .bf16 v6 bitsLt_bf16_f32) (constant (F := Ideal) S5000x16 .f32 0x00000000#32) (ix2 p q)
      + broadcastTo S5000x16 v9 broadcasts_S1x16_S5000x16 (ix2 p q)) (Ideal.ofBits .f32 0x00000000#32) = _
  rw [Cert.LibMatmulAt.matmul_zero_apply dot_S5000x1_S1x16_S5000x16_1_0_0_1_n_n rfl rfl rfl rfl rfl rfl none _ _ p q,
    ValueIdx.broadcastTo_1b_ab_apply v9 broadcasts_S1x16_S5000x16 p q]
  rfl

/-- The printed index maps over the grid: at point t a row-blocked window is at block row t, block column 0, and a
    window that holds a whole small array is at its one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem tlt (t : Fin cfg1.N) : t.val < 20 := by have := t.isLt; have hN : cfg1.N = 20 := N_1; omega

/-- Element (p, q) of window 0's block at point t is element (t·5000 + p, q) of its array. -/
theorem emb_0 (t : Fin cfg1.N) (p : Fin 5000) (q : Fin 1) :
    ((cfg1.win 0).blk t).view.emb (ix2 p q) = ix2 (rowOf t.val (tlt t) p) q := by
  obtain ⟨e0, e1, e2, e3, e4, e5, e6, e7, e8, e9⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 1 + 1 * q.val = q.val; omega

/-- Element (p, q) of window 1's block at point t is element (t·5000 + p, q) of its array. -/
theorem emb_1 (t : Fin cfg1.N) (p : Fin 5000) (q : Fin 1) :
    ((cfg1.win 1).blk t).view.emb (ix2 p q) = ix2 (rowOf t.val (tlt t) p) q := by
  obtain ⟨e0, e1, e2, e3, e4, e5, e6, e7, e8, e9⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 1 + 1 * q.val = q.val; omega

/-- Window 2's one block is its whole array. -/
theorem emb_2 (t : Fin cfg1.N) (p : Fin 1) (q : Fin 16) :
    ((cfg1.win 2).blk t).view.emb (ix2 p q) = ix2 p q := by
  obtain ⟨e0, e1, e2, e3, e4, e5, e6, e7, e8, e9⟩ := idx_facts t
  funext a; apply Fin.ext
  match a with
  | ⟨0, _⟩ => show win1_2.index t (0 : Fin 2) * 1 + 1 * p.val = p.val; omega
  | ⟨1, _⟩ => show win1_2.index t (1 : Fin 2) * 16 + 1 * q.val = q.val; omega

/-- Window 3's one block is its whole array. -/
theorem emb_3 (t : Fin cfg1.N) (p : Fin 1) (q : Fin 16) :
    ((cfg1.win 3).blk t).view.emb (ix2 p q) = ix2 p q := by
  obtain ⟨e0, e1, e2, e3, e4, e5, e6, e7, e8, e9⟩ := idx_facts t
  funext a; apply Fin.ext
  match a with
  | ⟨0, _⟩ => show win1_3.index t (0 : Fin 2) * 1 + 1 * p.val = p.val; omega
  | ⟨1, _⟩ => show win1_3.index t (1 : Fin 2) * 16 + 1 * q.val = q.val; omega

/-- Element (p, q) of window 4's block at point t is element (t·5000 + p, q) of its array. -/
theorem emb_4 (t : Fin cfg1.N) (p : Fin 5000) (q : Fin 16) :
    ((cfg1.win 4).blk t).view.emb (ix2 p q) = ix2 (rowOf t.val (tlt t) p) q := by
  obtain ⟨e0, e1, e2, e3, e4, e5, e6, e7, e8, e9⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 16 + 1 * q.val = q.val; omega

theorem iblk_0 (c : Dev nD) (t : Fin cfg1.N) (p : Fin 5000) (q : Fin 1) :
    iblk1 V c 0 t (ix2 p q) = V c main_v22 (ix2 (rowOf t.val (tlt t) p) q) := by
  show V c main_v22 (((cfg1.win 0).blk t).view.emb (ix2 p q)) = _
  rw [emb_0]

theorem iblk_1 (c : Dev nD) (t : Fin cfg1.N) (p : Fin 5000) (q : Fin 1) :
    iblk1 V c 1 t (ix2 p q) = V c main_v12_0 (ix2 (rowOf t.val (tlt t) p) q) := by
  show V c main_v12_0 (((cfg1.win 1).blk t).view.emb (ix2 p q)) = _
  rw [emb_1]

theorem iblk_2 (c : Dev nD) (t : Fin cfg1.N) (p : Fin 1) (q : Fin 16) :
    iblk1 V c 2 t (ix2 p q) = V c main_arg2 (ix2 p q) := by
  show V c main_arg2 (((cfg1.win 2).blk t).view.emb (ix2 p q)) = _
  rw [emb_2]

theorem iblk_3 (c : Dev nD) (t : Fin cfg1.N) (p : Fin 1) (q : Fin 16) :
    iblk1 V c 3 t (ix2 p q) = V c main_v23 (ix2 p q) := by
  show V c main_v23 (((cfg1.win 3).blk t).view.emb (ix2 p q)) = _
  rw [emb_3]

/-- What point t writes back is block t of `hiddenArr` of the arrays as the region finds them. -/
theorem flushed_eq (c : Dev nD) (t : Fin cfg1.N) :
    (dat1 V c).flushed 4 t = ((cfg1.win 4).blk t).view.read (Elt Ideal)
      (hiddenArr (V c main_v22) (V c main_v12_0) (V c main_arg2) (V c main_v23)) := by
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz, View.ld_unit_zero (S := S1x16) hz]
  funext j
  obtain ⟨p, q, rfl⟩ : ∃ (p : Fin 5000) (q : Fin 16), j = ix2 p q := ⟨j 0, j 1, eq_ix2 j⟩
  show k1_pay1 (F := Ideal) (iblk1 V c 1 t) (iblk1 V c 0 t) (iblk1 V c 2 t) (iblk1 V c 3 t) (ix2 p q)
    = hiddenArr (V c main_v22) (V c main_v12_0) (V c main_arg2) (V c main_v23) (((cfg1.win 4).blk t).view.emb (ix2 p q))
  rw [pay_apply, emb_4, hiddenArr_apply, iblk_3]
  unfold hiddenAt
  congr 2
  refine Finset.sum_congr rfl fun k _ => ?_
  rw [iblk_1, iblk_0, iblk_2]

/-- Every block row is some point's. -/
theorem idx_onto : ∀ q : Fin 20, ∃ t : Fin cfg1.N, win1_4.index t = ![q.val, 0] :=
  (by decide +kernel : ∀ q : Fin 20, ∃ t : Fin grid1.N, win1_4.index t = ![q.val, 0])

theorem mem_blk (t : Fin cfg1.N) (i : S100000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v24).slice (win1_4.rect t)).set ↔ _
  rw [View.set_slice_whole, Rect.mem_set_unit]
  exact Iff.rfl

/-- The 20 blocks cover the array: row r is in block r / 5000. -/
theorem cover (i : S100000x16.Idx) : ∃ t : Fin cfg1.N, (cfg1.win 4).flush t = true ∧ i ∈ ((cfg1.win 4).blk t).view.set := by
  have hi0 : (i 0).val < 100000 := (i 0).isLt
  have hi1 : (i 1).val < 16 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 16 ≤ (i 1).val ∧ (i 1).val < win1_4.index t (1 : Fin 2) * 16 + 16; omega

/-- After the region the array h holds `hiddenArr` of the aggregated column, the column d, the weights and the bias row. -/
theorem final (c : Dev nD) :
    (dat1 V c).arrAt 4 cfg1.N = hiddenArr (V c main_v22) (V c main_v12_0) (V c main_arg2) (V c main_v23) :=
  (dat1 V c).arrAt_eq_of_cover 4 _ (fun t _ => flushed_eq V c t) cover

end Cert.KernelIdeal.Region1

end
-- ==== Proof.KRegion2.lean ====
/-
  Region 2 as a whole-array function.

  The third pipelined region walks the 100000 nodes in 20 blocks of 5000 rows. From the hidden layer h : [100000, 16], the
  column d : [100000, 1] and the weights W : [16, 2] it writes y(r, q) = d(r) · Σ_k h(r, k) · W(k, q): the second layer's
  transform applied before the aggregation, scaled by the node's d. On the extended reals the change of format before the
  product is the identity and the matrix unit's product into a zero accumulator is the plain sum. Row r of y depends on row
  r of h and d only, so block t of y is that function of block t of the operands, and the 20 blocks tile the array.
-/
import proofs.«165192_j47605417509108_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«165192_j47605417509108_2_alg».proof.Proof.LibColumn
import proofs.«165192_j47605417509108_2_alg».proof.Proof.LibRowBlocks
import proofs.«165192_j47605417509108_2_alg».proof.Proof.LibMatmulAt

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.LibRowBlocks

variable (V : (c : Dev nD) → (b : Ref sig .tc) → Buf (Elt Ideal) ((c : Thread nD τ).loc b))

theorem hz : (![0, 0] : Fin 2 → Nat) = fun _ => 0 := funext fun a => by fin_cases a <;> rfl

/-- The transformed, scaled features at row r, channel q. -/
def scaledAt (h : S100000x16.Idx → EReal) (d : S100000x1.Idx → EReal) (W : S16x2.Idx → EReal) (r : Fin 100000) (q : Fin 2) : EReal :=
  d (ix2 r (0 : Fin 1)) * ∑ k : Fin 16, h (ix2 r k) * W (ix2 k q)

/-- The transformed, scaled features. -/
def scaledArr (h : S100000x16.Idx → EReal) (d : S100000x1.Idx → EReal) (W : S16x2.Idx → EReal) : S100000x2.Idx → EReal :=
  fun i => scaledAt h d W (i 0) (i 1)

theorem scaledArr_apply (h : S100000x16.Idx → EReal) (d : S100000x1.Idx → EReal) (W : S16x2.Idx → EReal) (r : Fin 100000) (q : Fin 2) :
    scaledArr h d W (ix2 r q) = scaledAt h d W r q := rfl

/-- The body's stored value at (p, q) of the block. -/
theorem pay_apply (v0 : Vec Ideal S5000x16 .f32) (v3 : Vec Ideal S16x2 .f32) (v6 : Vec Ideal S5000x1 .f32) (p : Fin 5000) (q : Fin 2) :
    k2_pay1 (F := Ideal) v0 v3 v6 (ix2 p q) = v6 (ix2 p (0 : Fin 1)) * ∑ k : Fin 16, v0 (ix2 p k) * v3 (ix2 k q) := by
  unfold k2_pay1
  simp only [shapeCast_self]
  show broadcastTo S5000x2 v6 broadcasts_S5000x1_S5000x2 (ix2 p q)
      * matmul dot_S5000x16_S16x2_S5000x2_1_0_0_1_n_n none (truncf .bf16 v0 bitsLt_bf16_f32)
        (truncf .bf16 v3 bitsLt_bf16_f32) (constant (F := Ideal) S5000x2 .f32 0x00000000#32) (ix2 p q) = _
  rw [Cert.LibMatmulAt.matmul_zero_apply dot_S5000x16_S16x2_S5000x2_1_0_0_1_n_n rfl rfl rfl rfl rfl rfl none _ _ p q,
    Cert.LibColumn.broadcastTo_a1_ab_apply v6 broadcasts_S5000x1_S5000x2 p q]
  rfl

/-- The printed index maps over the grid: at point t a row-blocked window is at block row t, block column 0, and a
    window that holds a whole small array is at its one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem tlt (t : Fin cfg2.N) : t.val < 20 := by have := t.isLt; have hN : cfg2.N = 20 := N_2; omega

/-- Element (p, q) of window 0's block at point t is element (t·5000 + p, q) of its array. -/
theorem emb_0 (t : Fin cfg2.N) (p : Fin 5000) (q : Fin 16) :
    ((cfg2.win 0).blk t).view.emb (ix2 p q) = ix2 (rowOf t.val (tlt t) p) q := by
  obtain ⟨e0, e1, e2, e3, e4, e5, e6, e7⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 16 + 1 * q.val = q.val; omega

/-- Element (p, q) of window 1's block at point t is element (t·5000 + p, q) of its array. -/
theorem emb_1 (t : Fin cfg2.N) (p : Fin 5000) (q : Fin 1) :
    ((cfg2.win 1).blk t).view.emb (ix2 p q) = ix2 (rowOf t.val (tlt t) p) q := by
  obtain ⟨e0, e1, e2, e3, e4, e5, e6, e7⟩ := idx_facts t
  funext a; apply Fin.ext
  match a with
  | ⟨0, _⟩ => show win2_1.index t (0 : Fin 2) * 5000 + 1 * p.val = t.val * 5000 + p.val; omega
  | ⟨1, _⟩ => show win2_1.index t (1 : Fin 2) * 1 + 1 * q.val = q.val; omega

/-- Window 2's one block is its whole array. -/
theorem emb_2 (t : Fin cfg2.N) (p : Fin 16) (q : Fin 2) :
    ((cfg2.win 2).blk t).view.emb (ix2 p q) = ix2 p q := by
  obtain ⟨e0, e1, e2, e3, e4, e5, e6, e7⟩ := idx_facts t
  funext a; apply Fin.ext
  match a with
  | ⟨0, _⟩ => show win2_2.index t (0 : Fin 2) * 16 + 1 * p.val = p.val; omega
  | ⟨1, _⟩ => show win2_2.index t (1 : Fin 2) * 2 + 1 * q.val = q.val; omega

/-- Element (p, q) of window 3's block at point t is element (t·5000 + p, q) of its array. -/
theorem emb_3 (t : Fin cfg2.N) (p : Fin 5000) (q : Fin 2) :
    ((cfg2.win 3).blk t).view.emb (ix2 p q) = ix2 (rowOf t.val (tlt t) p) q := by
  obtain ⟨e0, e1, e2, e3, e4, e5, e6, e7⟩ := idx_facts t
  funext a; apply Fin.ext
  match a with
  | ⟨0, _⟩ => show win2_3.index t (0 : Fin 2) * 5000 + 1 * p.val = t.val * 5000 + p.val; omega
  | ⟨1, _⟩ => show win2_3.index t (1 : Fin 2) * 2 + 1 * q.val = q.val; omega

theorem iblk_0 (c : Dev nD) (t : Fin cfg2.N) (p : Fin 5000) (q : Fin 16) :
    iblk2 V c 0 t (ix2 p q) = V c main_v24 (ix2 (rowOf t.val (tlt t) p) q) := by
  show V c main_v24 (((cfg2.win 0).blk t).view.emb (ix2 p q)) = _
  rw [emb_0]

theorem iblk_1 (c : Dev nD) (t : Fin cfg2.N) (p : Fin 5000) (q : Fin 1) :
    iblk2 V c 1 t (ix2 p q) = V c main_v12_0 (ix2 (rowOf t.val (tlt t) p) q) := by
  show V c main_v12_0 (((cfg2.win 1).blk t).view.emb (ix2 p q)) = _
  rw [emb_1]

theorem iblk_2 (c : Dev nD) (t : Fin cfg2.N) (p : Fin 16) (q : Fin 2) :
    iblk2 V c 2 t (ix2 p q) = V c main_arg4 (ix2 p q) := by
  show V c main_arg4 (((cfg2.win 2).blk t).view.emb (ix2 p q)) = _
  rw [emb_2]

/-- What point t writes back is block t of `scaledArr` of the arrays as the region finds them. -/
theorem flushed_eq (c : Dev nD) (t : Fin cfg2.N) :
    (dat2 V c).flushed 3 t = ((cfg2.win 3).blk t).view.read (Elt Ideal)
      (scaledArr (V c main_v24) (V c main_v12_0) (V c main_arg4)) := by
  show (cfg2.win 3).cut (grid2.coords t) ((dat2 V c).after 3 t) = _
  rw [after2_3]
  unfold out2_3
  rw [View.canon_unit_zero hz]
  simp only [View.ld_unit_zero (S := S5000x16) hz, View.ld_unit_zero (S := S5000x1) hz, View.ld_unit_zero (S := S16x2) hz,
    View.ld_unit_zero (S := S5000x2) hz]
  funext j
  obtain ⟨p, q, rfl⟩ : ∃ (p : Fin 5000) (q : Fin 2), j = ix2 p q := ⟨j 0, j 1, eq_ix2 j⟩
  show k2_pay1 (F := Ideal) (iblk2 V c 0 t) (iblk2 V c 2 t) (iblk2 V c 1 t) (ix2 p q)
    = scaledArr (V c main_v24) (V c main_v12_0) (V c main_arg4) (((cfg2.win 3).blk t).view.emb (ix2 p q))
  rw [pay_apply, emb_3, scaledArr_apply, iblk_1]
  unfold scaledAt
  congr 1
  refine Finset.sum_congr rfl fun k _ => ?_
  rw [iblk_0, iblk_2]

/-- Every block row is some point's. -/
theorem idx_onto : ∀ q : Fin 20, ∃ t : Fin cfg2.N, win2_3.index t = ![q.val, 0] :=
  (by decide +kernel : ∀ q : Fin 20, ∃ t : Fin grid2.N, win2_3.index t = ![q.val, 0])

theorem mem_blk (t : Fin cfg2.N) (i : S100000x2.Idx) :
    i ∈ ((cfg2.win 3).blk t).view.set ↔ ∀ a : Fin 2, win2_3.index t a * S5000x2.size a ≤ (i a).val ∧ (i a).val < win2_3.index t a * S5000x2.size a + S5000x2.size a := by
  show i ∈ ((View.whole main_v25).slice (win2_3.rect t)).set ↔ _
  rw [View.set_slice_whole, Rect.mem_set_unit]
  exact Iff.rfl

/-- The 20 blocks cover the array: row r is in block r / 5000. -/
theorem cover (i : S100000x2.Idx) : ∃ t : Fin cfg2.N, (cfg2.win 3).flush t = true ∧ i ∈ ((cfg2.win 3).blk t).view.set := by
  have hi0 : (i 0).val < 100000 := (i 0).isLt
  have hi1 : (i 1).val < 2 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 2 ≤ (i 1).val ∧ (i 1).val < win2_3.index t (1 : Fin 2) * 2 + 2; omega

/-- After the region the array y holds `scaledArr` of the hidden layer, the column d and the weights. -/
theorem final (c : Dev nD) : (dat2 V c).arrAt 3 cfg2.N = scaledArr (V c main_v24) (V c main_v12_0) (V c main_arg4) :=
  (dat2 V c).arrAt_eq_of_cover 3 _ (fun t _ => flushed_eq V c t) cover

end Cert.KernelIdeal.Region2

end
-- ==== Proof.KRegion3.lean ====
/-
  Region 3 as a whole-array function.

  The last pipelined region walks the 100000 nodes in 20 blocks of 5000 rows and writes, from the aggregated rows
  raw : [100000, 2], the column d : [100000, 1] and the bias row b : [1, 2], the result out(r, q) = d(r) · raw(r, q) + b(q).
  Each row of the result depends on the same row of raw and d only, so block t of the result is that function of block t
  of the operands, and the 20 blocks tile the array.
-/
import proofs.«165192_j47605417509108_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«165192_j47605417509108_2_alg».proof.Proof.LibColumn
import proofs.«165192_j47605417509108_2_alg».proof.Proof.LibRowBlocks
import proofs.«165192_j47605417509108_2_alg».proof.Proof.LibMatmulAt

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.LibRowBlocks

variable (V : (c : Dev nD) → (b : Ref sig .tc) → Buf (Elt Ideal) ((c : Thread nD τ).loc b))

theorem hz : (![0, 0] : Fin 2 → Nat) = fun _ => 0 := funext fun a => by fin_cases a <;> rfl

/-- The result at row r, channel q: the aggregated row scaled by the node's d, plus the bias. -/
def outAt (raw : S100000x2.Idx → EReal) (d : S100000x1.Idx → EReal) (b : S1x2.Idx → EReal) (r : Fin 100000) (q : Fin 2) : EReal :=
  d (ix2 r (0 : Fin 1)) * raw (ix2 r q) + b (ix2 (0 : Fin 1) q)

/-- The result array. -/
def outArr (raw : S100000x2.Idx → EReal) (d : S100000x1.Idx → EReal) (b : S1x2.Idx → EReal) : S100000x2.Idx → EReal :=
  fun i => outAt raw d b (i 0) (i 1)

theorem outArr_apply (raw : S100000x2.Idx → EReal) (d : S100000x1.Idx → EReal) (b : S1x2.Idx → EReal) (r : Fin 100000) (q : Fin 2) :
    outArr raw d b (ix2 r q) = outAt raw d b r q := rfl

/-- The body's stored value at (p, q) of the block. -/
theorem pay_apply (v0 : Vec Ideal S5000x1 .f32) (v2 : Vec Ideal S5000x2 .f32) (v6 : Vec Ideal S1x2 .f32) (p : Fin 5000) (q : Fin 2) :
    k3_pay1 (F := Ideal) v0 v2 v6 (ix2 p q) = v0 (ix2 p (0 : Fin 1)) * v2 (ix2 p q) + v6 (ix2 (0 : Fin 1) q) := by
  unfold k3_pay1
  simp only [shapeCast_self]
  show broadcastTo S5000x2 v0 broadcasts_S5000x1_S5000x2 (ix2 p q) * v2 (ix2 p q)
      + broadcastTo S5000x2 v6 broadcasts_S1x2_S5000x2 (ix2 p q) = _
  rw [Cert.LibColumn.broadcastTo_a1_ab_apply v0 broadcasts_S5000x1_S5000x2 p q,
    ValueIdx.broadcastTo_1b_ab_apply v6 broadcasts_S1x2_S5000x2 p q]

/-- The printed index maps over the grid: at point t a row-blocked window is at block row t, block column 0, and a
    window that holds a whole small array is at its one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem tlt (t : Fin cfg3.N) : t.val < 20 := by have := t.isLt; have hN : cfg3.N = 20 := N_3; omega

/-- Element (p, q) of window 0's block at point t is element (t·5000 + p, q) of its array. -/
theorem emb_0 (t : Fin cfg3.N) (p : Fin 5000) (q : Fin 2) :
    ((cfg3.win 0).blk t).view.emb (ix2 p q) = ix2 (rowOf t.val (tlt t) p) q := by
  obtain ⟨e0, e1, e2, e3, e4, e5, e6, e7⟩ := idx_facts t
  funext a; apply Fin.ext
  match a with
  | ⟨0, _⟩ => show win3_0.index t (0 : Fin 2) * 5000 + 1 * p.val = t.val * 5000 + p.val; omega
  | ⟨1, _⟩ => show win3_0.index t (1 : Fin 2) * 2 + 1 * q.val = q.val; omega

/-- Element (p, q) of window 1's block at point t is element (t·5000 + p, q) of its array. -/
theorem emb_1 (t : Fin cfg3.N) (p : Fin 5000) (q : Fin 1) :
    ((cfg3.win 1).blk t).view.emb (ix2 p q) = ix2 (rowOf t.val (tlt t) p) q := by
  obtain ⟨e0, e1, e2, e3, e4, e5, e6, e7⟩ := idx_facts t
  funext a; apply Fin.ext
  match a with
  | ⟨0, _⟩ => show win3_1.index t (0 : Fin 2) * 5000 + 1 * p.val = t.val * 5000 + p.val; omega
  | ⟨1, _⟩ => show win3_1.index t (1 : Fin 2) * 1 + 1 * q.val = q.val; omega

/-- Window 2's one block is its whole array. -/
theorem emb_2 (t : Fin cfg3.N) (p : Fin 1) (q : Fin 2) :
    ((cfg3.win 2).blk t).view.emb (ix2 p q) = ix2 p q := by
  obtain ⟨e0, e1, e2, e3, e4, e5, e6, e7⟩ := idx_facts t
  funext a; apply Fin.ext
  match a with
  | ⟨0, _⟩ => show win3_2.index t (0 : Fin 2) * 1 + 1 * p.val = p.val; omega
  | ⟨1, _⟩ => show win3_2.index t (1 : Fin 2) * 2 + 1 * q.val = q.val; omega

/-- Element (p, q) of window 3's block at point t is element (t·5000 + p, q) of its array. -/
theorem emb_3 (t : Fin cfg3.N) (p : Fin 5000) (q : Fin 2) :
    ((cfg3.win 3).blk t).view.emb (ix2 p q) = ix2 (rowOf t.val (tlt t) p) q := by
  obtain ⟨e0, e1, e2, e3, e4, e5, e6, e7⟩ := idx_facts t
  funext a; apply Fin.ext
  match a with
  | ⟨0, _⟩ => show win3_3.index t (0 : Fin 2) * 5000 + 1 * p.val = t.val * 5000 + p.val; omega
  | ⟨1, _⟩ => show win3_3.index t (1 : Fin 2) * 2 + 1 * q.val = q.val; omega

theorem iblk_0 (c : Dev nD) (t : Fin cfg3.N) (p : Fin 5000) (q : Fin 2) :
    iblk3 V c 0 t (ix2 p q) = V c main_v35 (ix2 (rowOf t.val (tlt t) p) q) := by
  show V c main_v35 (((cfg3.win 0).blk t).view.emb (ix2 p q)) = _
  rw [emb_0]

theorem iblk_1 (c : Dev nD) (t : Fin cfg3.N) (p : Fin 5000) (q : Fin 1) :
    iblk3 V c 1 t (ix2 p q) = V c main_v12_0 (ix2 (rowOf t.val (tlt t) p) q) := by
  show V c main_v12_0 (((cfg3.win 1).blk t).view.emb (ix2 p q)) = _
  rw [emb_1]

theorem iblk_2 (c : Dev nD) (t : Fin cfg3.N) (p : Fin 1) (q : Fin 2) :
    iblk3 V c 2 t (ix2 p q) = V c main_v36 (ix2 p q) := by
  show V c main_v36 (((cfg3.win 2).blk t).view.emb (ix2 p q)) = _
  rw [emb_2]

/-- What point t writes back is block t of `outArr` of the arrays as the region finds them. -/
theorem flushed_eq (c : Dev nD) (t : Fin cfg3.N) :
    (dat3 V c).flushed 3 t = ((cfg3.win 3).blk t).view.read (Elt Ideal) (outArr (V c main_v35) (V c main_v12_0) (V c main_v36)) := by
  show (cfg3.win 3).cut (grid3.coords t) ((dat3 V c).after 3 t) = _
  rw [after3_3]
  unfold out3_3
  rw [View.canon_unit_zero hz]
  simp only [View.ld_unit_zero (S := S5000x2) hz, View.ld_unit_zero (S := S5000x1) hz, View.ld_unit_zero (S := S1x2) hz]
  funext j
  obtain ⟨p, q, rfl⟩ : ∃ (p : Fin 5000) (q : Fin 2), j = ix2 p q := ⟨j 0, j 1, eq_ix2 j⟩
  show k3_pay1 (F := Ideal) (iblk3 V c 1 t) (iblk3 V c 0 t) (iblk3 V c 2 t) (ix2 p q)
    = outArr (V c main_v35) (V c main_v12_0) (V c main_v36) (((cfg3.win 3).blk t).view.emb (ix2 p q))
  rw [pay_apply, iblk_1, iblk_0, iblk_2, emb_3, outArr_apply]
  rfl

/-- Every block row is some point's. -/
theorem idx_onto : ∀ q : Fin 20, ∃ t : Fin cfg3.N, win3_3.index t = ![q.val, 0] :=
  (by decide +kernel : ∀ q : Fin 20, ∃ t : Fin grid3.N, win3_3.index t = ![q.val, 0])

theorem mem_blk (t : Fin cfg3.N) (i : S100000x2.Idx) :
    i ∈ ((cfg3.win 3).blk t).view.set ↔ ∀ a : Fin 2, win3_3.index t a * S5000x2.size a ≤ (i a).val ∧ (i a).val < win3_3.index t a * S5000x2.size a + S5000x2.size a := by
  show i ∈ ((View.whole main_v37).slice (win3_3.rect t)).set ↔ _
  rw [View.set_slice_whole, Rect.mem_set_unit]
  exact Iff.rfl

/-- The 20 blocks cover the array: row r is in block r / 5000. -/
theorem cover (i : S100000x2.Idx) : ∃ t : Fin cfg3.N, (cfg3.win 3).flush t = true ∧ i ∈ ((cfg3.win 3).blk t).view.set := by
  have hi0 : (i 0).val < 100000 := (i 0).isLt
  have hi1 : (i 1).val < 2 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 2 ≤ (i 1).val ∧ (i 1).val < win3_3.index t (1 : Fin 2) * 2 + 2; omega

/-- After the region the result array holds `outArr` of the aggregated rows, the column d and the bias row. -/
theorem final (c : Dev nD) : (dat3 V c).arrAt 3 cfg3.N = outArr (V c main_v35) (V c main_v12_0) (V c main_v36) :=
  (dat3 V c).arrAt_eq_of_cover 3 _ (fun t _ => flushed_eq V c t) cover

end Cert.KernelIdeal.Region3

end
-- ==== Proof.KValue.lean ====
/-
  The kernel program's result as one function of its arguments.

  The program's @main alternates stretches of host operations with four pipelined regions. Reading it boundary by
  boundary: the host builds the destination and source words of the 3300000 edges (the 3200000 given ones followed by the
  100000 self loops) and the degree column deg (a scatter-add of ones at the destination words); region 0 writes
  d = 1/sqrt(max(deg, 1)) (0 at degree 0) and y = d · x; the host gathers y at the source words and scatter-adds it at the
  destination words; region 1 writes the hidden layer h; region 2 writes y2 = d · (h · W2); the host gathers y2 and
  scatter-adds it; region 3 writes the result d · raw2 + b2. Each boundary's contents are the previous boundary's with
  the stretch's results or the region's arrays replaced, so every buffer a later step reads is followed from boundary to
  boundary; the regions' arrays are the whole-array functions of Regions 0 to 3.
-/
import proofs.«165192_j47605417509108_2_alg».proof.Proof.KRegion0
import proofs.«165192_j47605417509108_2_alg».proof.Proof.KRegion1
import proofs.«165192_j47605417509108_2_alg».proof.Proof.KRegion2
import proofs.«165192_j47605417509108_2_alg».proof.Proof.KRegion3
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx Idealize.ShloMosaic.StableHlo
open Cert.KernelIdeal.Region0 Cert.KernelIdeal.Region1 Cert.KernelIdeal.Region2 Cert.KernelIdeal.Region3

/-! ## The stages as array functions -/

/-- The destination words of the edges: the given ones, then the self loops 0 … 99999. -/
def dstRaw (a1 : IVec S2x3200000 32) : IVec S3300000 32 :=
  concatenate S3300000 0 [⟨S3200000, shapeCast S3200000 (extractStridedSlice S1x3200000 ![1, 0] a1 slices_S2x3200000_S1x3200000_1_0) shapeCasts_S1x3200000_S3200000⟩, ⟨S100000, iotaInDim S100000 32 0⟩] concatenates_S3200000_S100000_S3300000_d0
/-- The source words of the edges. -/
def srcRaw (a1 : IVec S2x3200000 32) : IVec S3300000 32 :=
  concatenate S3300000 0 [⟨S3200000, shapeCast S3200000 (extractStridedSlice S1x3200000 ![0, 0] a1 slices_S2x3200000_S1x3200000_0_0) shapeCasts_S1x3200000_S3200000⟩, ⟨S100000, iotaInDim S100000 32 0⟩] concatenates_S3200000_S100000_S3300000_d0
/-- The destination words as the scatters' index column. -/
def dstIdx (a1 : IVec S2x3200000 32) : IVec S3300000x1 32 :=
  broadcastInDim S3300000x1 ![0] bcast_S3300000_S3300000x1_0 (dstRaw a1)
/-- The source words, a negative one moved up by the node count, as the gathers' index column. -/
def srcIdx (a1 : IVec S2x3200000 32) : IVec S3300000x1 32 :=
  broadcastInDim S3300000x1 ![0] bcast_S3300000_S3300000x1_0
    (select (cmpi .slt (srcRaw a1) (broadcastInDim S3300000 ![] bcast_S_S3300000 (constantI S_ 32 0#32)))
      (addi (srcRaw a1) (broadcastInDim S3300000 ![] bcast_S_S3300000 (constantI S_ 32 100000#32))) (srcRaw a1))
/-- The degree column: ones scatter-added at the destination words. -/
def degCol (a1 : IVec S2x3200000 32) : FVec Ideal S100000x1 .f32 :=
  broadcastInDim S100000x1 ![0] bcast_S100000_S100000x1_0
    (Host.scatterAdd scatter_S100000_S3300000x1_S3300000_n_0_0_1
      (broadcastInDim S100000 ![] bcast_S_S100000 (constant (F := Ideal) S_ .f32 0x00000000#32)) (dstIdx a1)
      (broadcastInDim S3300000 ![] bcast_S_S3300000 (constant (F := Ideal) S_ .f32 0x3F800000#32)))
/-- The first layer's aggregate: the scaled features gathered at the source words, scatter-added at the destination words. -/
def raw1 (a0 : FVec Ideal S100000x1 .f32) (a1 : IVec S2x3200000 32) : FVec Ideal S100000x1 .f32 :=
  Host.scatterAdd scatter_S100000x1_S3300000x1_S3300000x1_1_0_0_1
    (broadcastInDim S100000x1 ![] bcast_S_S100000x1 (constant (F := Ideal) S_ .f32 0x00000000#32)) (dstIdx a1)
    (Host.gather gather_S100000x1_S3300000x1_S3300000x1_1_0_n_n_0_1_11 (scaledCol (degCol a1) a0) (srcIdx a1))
/-- The hidden layer. -/
def hid (a0 : FVec Ideal S100000x1 .f32) (a1 : IVec S2x3200000 32) (a2 : FVec Ideal S1x16 .f32) (a3 : FVec Ideal S16 .f32) :
    FVec Ideal S100000x16 .f32 :=
  hiddenArr (raw1 a0 a1) (dinvCol (degCol a1)) a2 (shapeCast S1x16 a3 shapeCasts_S16_S1x16)
/-- The second layer's transformed, scaled features. -/
def feat2 (a0 : FVec Ideal S100000x1 .f32) (a1 : IVec S2x3200000 32) (a2 : FVec Ideal S1x16 .f32) (a3 : FVec Ideal S16 .f32)
    (a4 : FVec Ideal S16x2 .f32) : FVec Ideal S100000x2 .f32 :=
  scaledArr (hid a0 a1 a2 a3) (dinvCol (degCol a1)) a4
/-- The second layer's aggregate. -/
def raw2 (a0 : FVec Ideal S100000x1 .f32) (a1 : IVec S2x3200000 32) (a2 : FVec Ideal S1x16 .f32) (a3 : FVec Ideal S16 .f32)
    (a4 : FVec Ideal S16x2 .f32) : FVec Ideal S100000x2 .f32 :=
  Host.scatterAdd scatter_S100000x2_S3300000x1_S3300000x2_1_0_0_1
    (broadcastInDim S100000x2 ![] bcast_S_S100000x2 (constant (F := Ideal) S_ .f32 0x00000000#32)) (dstIdx a1)
    (Host.gather gather_S100000x2_S3300000x1_S3300000x2_1_0_n_n_0_1_12 (feat2 a0 a1 a2 a3 a4) (srcIdx a1))
/-- The program's result. -/
def result (a0 : FVec Ideal S100000x1 .f32) (a1 : IVec S2x3200000 32) (a2 : FVec Ideal S1x16 .f32) (a3 : FVec Ideal S16 .f32)
    (a4 : FVec Ideal S16x2 .f32) (a5 : FVec Ideal S2 .f32) : FVec Ideal S100000x2 .f32 :=
  outArr (raw2 a0 a1 a2 a3 a4) (dinvCol (degCol a1)) (shapeCast S1x2 a5 shapeCasts_S2_S1x2)

/-! ## The boundaries -/

variable (m : (ℓ : Loc nD τ sig) → Buf (Elt Ideal) ℓ) (ρ : Dev nD → PrngReg) (c : Dev nD)

/-! ### After the first host stretch -/

theorem W1_v11 : W1 m ρ c (Proc.devRef .tc main_v11) = degCol (m ((c : Thread nD τ).loc main_arg1)) := by
  show StableHlo.after hostOps0 (W0 m ρ c) (Proc.devRef .tc main_v11) = _
  dsimp only [hostOps0]; after_results; rfl
theorem W1_v3 : W1 m ρ c (Proc.devRef .tc main_v3) = srcRaw (m ((c : Thread nD τ).loc main_arg1)) := by
  show StableHlo.after hostOps0 (W0 m ρ c) (Proc.devRef .tc main_v3) = _
  dsimp only [hostOps0]; after_results; rfl
theorem W1_v6 : W1 m ρ c (Proc.devRef .tc main_v6) = dstRaw (m ((c : Thread nD τ).loc main_arg1)) := by
  show StableHlo.after hostOps0 (W0 m ρ c) (Proc.devRef .tc main_v6) = _
  dsimp only [hostOps0]; after_results; rfl
theorem W1_arg0 : W1 m ρ c (Proc.devRef .tc main_arg0) = (m ((c : Thread nD τ).loc main_arg0)) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg2 : W1 m ρ c (Proc.devRef .tc main_arg2) = (m ((c : Thread nD τ).loc main_arg2)) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg3 : W1 m ρ c (Proc.devRef .tc main_arg3) = (m ((c : Thread nD τ).loc main_arg3)) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg4 : W1 m ρ c (Proc.devRef .tc main_arg4) = (m ((c : Thread nD τ).loc main_arg4)) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W1_arg5 : W1 m ρ c (Proc.devRef .tc main_arg5) = (m ((c : Thread nD τ).loc main_arg5)) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ### After region 0 -/

theorem W2_v12_0 : W2 m ρ c (Proc.devRef .tc main_v12_0) = dinvCol (degCol (m ((c : Thread nD τ).loc main_arg1))) := by
  rw [show W2 m ρ c (Proc.devRef .tc main_v12_0) = (dat0 (V1 m ρ) c).arrAt 2 cfg0.N from W2_arr m ρ c 2, Region0.final2]
  show dinvCol (W1 m ρ c (Proc.devRef .tc main_v11)) = _
  rw [W1_v11]
theorem W2_v12_1 : W2 m ρ c (Proc.devRef .tc main_v12_1) = scaledCol (degCol (m ((c : Thread nD τ).loc main_arg1))) (m ((c : Thread nD τ).loc main_arg0)) := by
  rw [show W2 m ρ c (Proc.devRef .tc main_v12_1) = (dat0 (V1 m ρ) c).arrAt 3 cfg0.N from W2_arr m ρ c 3, Region0.final3]
  show scaledCol (W1 m ρ c (Proc.devRef .tc main_v11)) (W1 m ρ c (Proc.devRef .tc main_arg0)) = _
  rw [W1_v11, W1_arg0]
theorem W2_v3 : W2 m ρ c (Proc.devRef .tc main_v3) = srcRaw (m ((c : Thread nD τ).loc main_arg1)) := (W2_of_ne m ρ c main_v3 (by decide)).trans (W1_v3 m ρ c)
theorem W2_v6 : W2 m ρ c (Proc.devRef .tc main_v6) = dstRaw (m ((c : Thread nD τ).loc main_arg1)) := (W2_of_ne m ρ c main_v6 (by decide)).trans (W1_v6 m ρ c)
theorem W2_arg2 : W2 m ρ c (Proc.devRef .tc main_arg2) = (m ((c : Thread nD τ).loc main_arg2)) := (W2_of_ne m ρ c main_arg2 (by decide)).trans (W1_arg2 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)

/-! ### After the second host stretch -/

theorem W3_v22 : W3 m ρ c (Proc.devRef .tc main_v22) = raw1 (m ((c : Thread nD τ).loc main_arg0)) (m ((c : Thread nD τ).loc main_arg1)) := by
  show StableHlo.after hostOps1 (W2 m ρ c) (Proc.devRef .tc main_v22) = _
  dsimp only [hostOps1]; after_results
  rw [W2_v6, W2_v12_1, W2_v3]; rfl
theorem W3_v23 : W3 m ρ c (Proc.devRef .tc main_v23) = shapeCast S1x16 (m ((c : Thread nD τ).loc main_arg3)) shapeCasts_S16_S1x16 := by
  show StableHlo.after hostOps1 (W2 m ρ c) (Proc.devRef .tc main_v23) = _
  dsimp only [hostOps1]; after_results
  rw [W2_arg3]; rfl
theorem W3_v12_0 : W3 m ρ c (Proc.devRef .tc main_v12_0) = dinvCol (degCol (m ((c : Thread nD τ).loc main_arg1))) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v12_0 m ρ c)
theorem W3_v3 : W3 m ρ c (Proc.devRef .tc main_v3) = srcRaw (m ((c : Thread nD τ).loc main_arg1)) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v3 m ρ c)
theorem W3_v6 : W3 m ρ c (Proc.devRef .tc main_v6) = dstRaw (m ((c : Thread nD τ).loc main_arg1)) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v6 m ρ c)
theorem W3_arg2 : W3 m ρ c (Proc.devRef .tc main_arg2) = (m ((c : Thread nD τ).loc main_arg2)) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg2 m ρ c)
theorem W3_arg4 : W3 m ρ c (Proc.devRef .tc main_arg4) = (m ((c : Thread nD τ).loc main_arg4)) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg4 m ρ c)
theorem W3_arg5 : W3 m ρ c (Proc.devRef .tc main_arg5) = (m ((c : Thread nD τ).loc main_arg5)) :=
  (StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg5 m ρ c)

/-! ### After region 1 -/

theorem W4_v24 : W4 m ρ c (Proc.devRef .tc main_v24) = hid (m ((c : Thread nD τ).loc main_arg0)) (m ((c : Thread nD τ).loc main_arg1)) (m ((c : Thread nD τ).loc main_arg2)) (m ((c : Thread nD τ).loc main_arg3)) := by
  rw [show W4 m ρ c (Proc.devRef .tc main_v24) = (dat1 (V3 m ρ) c).arrAt 4 cfg1.N from W4_arr m ρ c 4, Region1.final]
  show hiddenArr (W3 m ρ c (Proc.devRef .tc main_v22)) (W3 m ρ c (Proc.devRef .tc main_v12_0)) (W3 m ρ c (Proc.devRef .tc main_arg2)) (W3 m ρ c (Proc.devRef .tc main_v23)) = _
  rw [W3_v22, W3_v12_0, W3_arg2, W3_v23]; rfl
theorem W4_v12_0 : W4 m ρ c (Proc.devRef .tc main_v12_0) = dinvCol (degCol (m ((c : Thread nD τ).loc main_arg1))) :=
  (W4_arr m ρ c 1).trans (((dat1 (V3 m ρ) c).arrAt_in 1 rfl _).trans ((A_eq1 (V3 m ρ) c 1).trans (W3_v12_0 m ρ c)))
theorem W4_v3 : W4 m ρ c (Proc.devRef .tc main_v3) = srcRaw (m ((c : Thread nD τ).loc main_arg1)) := (W4_of_ne m ρ c main_v3 (by decide)).trans (W3_v3 m ρ c)
theorem W4_v6 : W4 m ρ c (Proc.devRef .tc main_v6) = dstRaw (m ((c : Thread nD τ).loc main_arg1)) := (W4_of_ne m ρ c main_v6 (by decide)).trans (W3_v6 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

/-! ### After region 2 -/

theorem W5_v25 : W5 m ρ c (Proc.devRef .tc main_v25) = feat2 (m ((c : Thread nD τ).loc main_arg0)) (m ((c : Thread nD τ).loc main_arg1)) (m ((c : Thread nD τ).loc main_arg2)) (m ((c : Thread nD τ).loc main_arg3)) (m ((c : Thread nD τ).loc main_arg4)) := by
  rw [show W5 m ρ c (Proc.devRef .tc main_v25) = (dat2 (V4 m ρ) c).arrAt 3 cfg2.N from W5_arr m ρ c 3, Region2.final]
  show scaledArr (W4 m ρ c (Proc.devRef .tc main_v24)) (W4 m ρ c (Proc.devRef .tc main_v12_0)) (W4 m ρ c (Proc.devRef .tc main_arg4)) = _
  rw [W4_v24, W4_v12_0, W4_arg4]; rfl
theorem W5_v12_0 : W5 m ρ c (Proc.devRef .tc main_v12_0) = dinvCol (degCol (m ((c : Thread nD τ).loc main_arg1))) :=
  (W5_arr m ρ c 1).trans (((dat2 (V4 m ρ) c).arrAt_in 1 rfl _).trans ((A_eq2 (V4 m ρ) c 1).trans (W4_v12_0 m ρ c)))
theorem W5_v3 : W5 m ρ c (Proc.devRef .tc main_v3) = srcRaw (m ((c : Thread nD τ).loc main_arg1)) := (W5_of_ne m ρ c main_v3 (by decide)).trans (W4_v3 m ρ c)
theorem W5_v6 : W5 m ρ c (Proc.devRef .tc main_v6) = dstRaw (m ((c : Thread nD τ).loc main_arg1)) := (W5_of_ne m ρ c main_v6 (by decide)).trans (W4_v6 m ρ c)
theorem W5_arg5 : W5 m ρ c (Proc.devRef .tc main_arg5) = (m ((c : Thread nD τ).loc main_arg5)) := (W5_of_ne m ρ c main_arg5 (by decide)).trans (W4_arg5 m ρ c)

/-! ### After the third host stretch -/

theorem W6_v35 : W6 m ρ c (Proc.devRef .tc main_v35) = raw2 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v35) = _
  dsimp only [hostOps3]; after_results
  rw [W5_v6, W5_v25, W5_v3]; rfl
theorem W6_v36 : W6 m ρ c (Proc.devRef .tc main_v36) = shapeCast S1x2 (m ((c : Thread nD τ).loc main_arg5)) shapeCasts_S2_S1x2 := by
  show StableHlo.after hostOps3 (W5 m ρ c) (Proc.devRef .tc main_v36) = _
  dsimp only [hostOps3]; after_results
  rw [W5_arg5]; rfl
theorem W6_v12_0 : W6 m ρ c (Proc.devRef .tc main_v12_0) = dinvCol (degCol (m ((c : Thread nD τ).loc main_arg1))) :=
  (StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_v12_0 m ρ c)

/-! ### After region 3: the result -/

/-- The last boundary's contents at the result buffer are `result` of the six arguments as launched. -/
theorem W7_v37 : W7 m ρ c (Proc.devRef .tc main_v37) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [show W7 m ρ c (Proc.devRef .tc main_v37) = (dat3 (V6 m ρ) c).arrAt 3 cfg3.N from W7_arr m ρ c 3, Region3.final]
  show outArr (W6 m ρ c (Proc.devRef .tc main_v35)) (W6 m ρ c (Proc.devRef .tc main_v12_0)) (W6 m ρ c (Proc.devRef .tc main_v36)) = _
  rw [W6_v35, W6_v12_0, W6_v36]; rfl

end Cert.KernelIdeal.KValue

end
-- ==== Proof.LibScatterSet.lean ====
import Idealize.ShloMosaic.PureOps

/-!
# Reading a scatter that overwrites

`Host.scatter d f x idx upd` is a left fold over the update indices in row-major order; with
`f = fun _ b => b` each step that lands inside the operand overwrites one element by the update's.
Two facts about one element `i` of the result:

* if exactly one update index lands at `i`, the result there is that update's element;
* if no update index lands at `i`, the result there is the operand's element.

Both are proved by induction on the list the fold runs over, for an arbitrary accumulator.
-/

namespace Cert.LibScatterSet

open Idealize.ShloMosaic

variable {α : Type} {s si u : Shape} {w : Nat}

/-- One step of the overwriting scatter: update number `n` (row-major) replaces the element it lands
    at, when it lands inside the operand, and changes nothing otherwise. -/
def step (d : ScatterDims s si u) (idx : IVec si w) (upd : u.Idx → α) (r : s.Idx → α) (n : Fin u.numel) :
    s.Idx → α :=
  match d.resultIdx? (u.rowMajor.symm n) idx with
  | some i => fun i' => if i' = i then (fun (_ : α) (b : α) => b) (r i) (upd (u.rowMajor.symm n)) else r i'
  | none => r

/-- The overwriting scatter is the left fold of `step` over all update numbers. -/
theorem scatter_eq_foldl (d : ScatterDims s si u) (x : s.Idx → α) (idx : IVec si w) (upd : u.Idx → α) :
    Host.scatter d (fun _ b => b) x idx upd = (List.finRange u.numel).foldl (step d idx upd) x := rfl

/-- A step whose update lands at `i` leaves the update's element at `i`. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  simp

/-- A step whose update does not land at `i` leaves the element at `i` as it was. -/
theorem step_miss (d : ScatterDims s si u) (idx : IVec si w) (upd : u.Idx → α) (r : s.Idx → α) (n : Fin u.numel)
    (i : s.Idx) (h : d.resultIdx? (u.rowMajor.symm n) idx ≠ some i) :
    step d idx upd r n i = r i := by
  unfold step
  cases hr : d.resultIdx? (u.rowMajor.symm n) idx with
  | none => rfl
  | some i0 =>
    have hne : i ≠ i0 := fun e => h (by rw [hr, e])
    simp [hne]

/-- Folding steps none of which lands at `i` leaves the element at `i` as it was. -/
theorem foldl_miss (d : ScatterDims s si u) (idx : IVec si w) (upd : u.Idx → α) (i : s.Idx)
    (l : List (Fin u.numel)) (h : ∀ n ∈ l, d.resultIdx? (u.rowMajor.symm n) idx ≠ some i) (acc : s.Idx → α) :
    l.foldl (step d idx upd) acc i = acc i := by
  induction l generalizing acc with
  | nil => rfl
  | cons a l ih =>
    rw [List.foldl_cons, ih (fun n hn => h n (List.mem_cons_of_mem _ hn))]
    exact step_miss d idx upd acc a i (h a List.mem_cons_self)

/-- Folding steps of which only number `n0` lands at `i`: when `n0` is still in the list, or the
    accumulator already holds update `n0`'s element at `i`, the result holds it at `i`. -/
theorem foldl_hit (d : ScatterDims s si u) (idx : IVec si w) (upd : u.Idx → α) (i : s.Idx) (n0 : Fin u.numel)
    (h0 : d.resultIdx? (u.rowMajor.symm n0) idx = some i)
    (l : List (Fin u.numel)) (huniq : ∀ n ∈ l, d.resultIdx? (u.rowMajor.symm n) idx = some i → n = n0)
    (acc : s.Idx → α) (hinv : n0 ∈ l ∨ acc i = upd (u.rowMajor.symm n0)) :
    l.foldl (step d idx upd) acc i = upd (u.rowMajor.symm n0) := by
  induction l generalizing acc with
  | nil =>
    rcases hinv with hmem | hacc
    · exact absurd hmem (List.not_mem_nil)
    · exact hacc
  | cons a l ih =>
    rw [List.foldl_cons]
    apply ih (fun n hn => huniq n (List.mem_cons_of_mem _ hn))
    by_cases ha : a = n0
    · right
      rw [ha]
      exact step_hit d idx upd acc n0 i h0
    · have hmiss : d.resultIdx? (u.rowMajor.symm a) idx ≠ some i := fun e => ha (huniq a List.mem_cons_self e)
      rcases hinv with hmem | hacc
      · left
        rcases List.mem_cons.1 hmem with e | hm
        · exact absurd e.symm ha
        · exact hm
      · right
        rw [step_miss d idx upd acc a i hmiss]
        exact hacc

/-- An update index `j` lands at `i` exactly when, on every operand axis, its window's start plus its window
    coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have e := Option.some.inj h
      have ea : (i a).val = (d.start j idx a + (d.window j a : Int)).toNat := by rw [← e]
      have := (hb a).1
      omega
    · exact absurd h (by simp)
  · intro h
    have hb : ∀ a, 0 ≤ d.start j idx a + (d.window j a : Int) ∧ d.start j idx a + (d.window j a : Int) < s.size a := by
      intro a
      rw [h a]
      have := (i a).isLt
      omega
    rw [dif_pos hb]
    congr 1
    funext a
    apply Fin.ext
    show (d.start j idx a + (d.window j a : Int)).toNat = (i a).val
    rw [h a]
    exact Int.toNat_natCast _

/-- (hit) If update index `j` lands at `i` and it is the only update index that does, the overwriting
    scatter holds the update's element `upd j` at `i`. -/
theorem scatter_set_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  rw [scatter_eq_foldl]
  have h0 : d.resultIdx? (u.rowMajor.symm (u.rowMajor j)) idx = some i := by
    rw [Equiv.symm_apply_apply]; exact hj
  have := foldl_hit d idx upd i (u.rowMajor j) h0 (List.finRange u.numel)
    (fun n _ hn => by
      have e := huniq _ hn
      rw [← e, Equiv.apply_symm_apply])
    x (Or.inl (List.mem_finRange _))
  rw [this, Equiv.symm_apply_apply]

/-- (miss) If no update index lands at `i`, the overwriting scatter holds the operand's element at `i`. -/
theorem scatter_set_miss (d : ScatterDims s si u) (x : s.Idx → α) (idx : IVec si w) (upd : u.Idx → α)
    (i : s.Idx) (hnone : ∀ j, d.resultIdx? j idx ≠ some i) :
    Host.scatter d (fun _ b => b) x idx upd i = x i := by
  rw [scatter_eq_foldl]
  exact foldl_miss d idx upd i _ (fun n _ => hnone _) x

end Cert.LibScatterSet
-- ==== Proof.LibEdgeOps.lean ====
/-
  Row gathers and row scatters read at an element.

  A program gathers rows of an array x : [N, C] (or entries of x : [N]) at a column idx : [M, 1] of integer words, and
  scatter-adds the rows of an update u : [M, C] (or the entries of u : [M]) into an operand of N rows at the rows a
  column of words names. Read at one element:

  * the gather's row e is the operand's row `pos` of word e: the word read signed and clamped into [0, N − 1];
  * the accumulating scatter's element (i, c) over the extended reals is the operand's element plus the sum of u(e, c)
    over the edges e whose word `land`s at i: the word read signed, NOT clamped, dropped when outside [0, N).

  A word that lands at row i is gathered from row i (`pos_of_land`). The statements are over ANY record of dimension
  numbers with the lists of such a row gather / row scatter, whatever the extents.
-/
import Idealize.ShloMosaic.PureOps
import Idealize.ShloMosaic.PureOps.Ideal
import Idealize.ShloMosaic.Lib.ValueIdx
import proofs.«165192_j47605417509108_2_alg».proof.Proof.LibScatterSet

noncomputable section

namespace Cert.LibEdgeOps

open Idealize.ShloMosaic Idealize.ShloMosaic.ValueIdx

/-! ## Where a word points -/

/-- The row of an N-row axis a start word names under the scatter's rule: read signed, not clamped; none when outside. -/
def land (N : ℕ) {w : ℕ} (v : BitVec w) : Option (Fin N) :=
  if h : 0 ≤ v.toInt ∧ v.toInt < (N : Int) then some ⟨v.toInt.toNat, by omega⟩ else none

theorem land_eq_some_iff {N w : ℕ} (v : BitVec w) (i : Fin N) : land N v = some i ↔ v.toInt = (i.val : Int) := by
  unfold land
  constructor
  · intro h
    split at h
    · rename_i hb
      have e := Option.some.inj h
      have : i.val = v.toInt.toNat := by rw [← e]
      omega
    · exact absurd h (by simp)
  · intro h
    have hb : 0 ≤ v.toInt ∧ v.toInt < (N : Int) := by have := i.isLt; omega
    rw [dif_pos hb]
    congr 1
    apply Fin.ext
    show v.toInt.toNat = i.val
    omega

/-- The row of an N-row axis a start word names under the gather's rule: read signed and clamped into [0, N − 1]. -/
def pos (N : ℕ) (hN : 0 < N) {w : ℕ} (v : BitVec w) : Fin N := ⟨min v.toInt.toNat (N - 1), by omega⟩

/-- A word that lands at row i is gathered from row i. -/
theorem pos_of_land {N w : ℕ} (hN : 0 < N) (v : BitVec w) (i : Fin N) (h : land N v = some i) : pos N hN v = i := by
  rw [land_eq_some_iff] at h
  apply Fin.ext
  show min v.toInt.toNat (N - 1) = i.val
  have := i.isLt
  omega

/-! ## The accumulating row scatter of an [M, C] update into [N, C] -/

abbrev rowScatter {N M C : ℕ} (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ := ⟨[1], [0], [0], 1, wf⟩

section RowScatter
variable {N M C w : ℕ} (wf : ScatterDims.WF ⟨2, ![N, C]⟩ ⟨2, ![M, 1]⟩ ⟨2, ![M, C]⟩ [1] [0] [0] 1)

theorem rowScatter_start0 (j : (⟨2, ![M, C]⟩ : Shape).Idx) (idx : IVec ⟨2, ![M, 1]⟩ w) :
    (rowScatter wf).start j idx 0 = (idx (ix2 (j 0) 0)).toInt := by
  unfold ScatterDims.start
  rw [dif_pos (show (0 : Fin 2) ∈ (rowScatter wf).scatterDimsToOperandDims from List.mem_singleton.mpr rfl)]
  congr 2
  funext b; refine Fin.ext ?_
  match b with
  | ⟨0, _⟩ => rfl
  | ⟨1, _⟩ => rfl

theorem rowScatter_start1 (j : (⟨2, ![M, C]⟩ : Shape).Idx) (idx : IVec ⟨2, ![M, 1]⟩ w) :
    (rowScatter wf).start j idx 1 = 0 := by
  unfold ScatterDims.start
  rw [dif_neg (show ¬ ((1 : Fin 2) ∈ ([0] : List (Fin 2))) by decide)]

theorem rowScatter_window0 (j : (⟨2, ![M, C]⟩ : Shape).Idx) : (rowScatter wf).window j 0 = 0 := by
  unfold ScatterDims.window
  rw [dif_neg (show ¬ ((0 : Fin 2) ∈ (rowScatter wf).sKept) from fun h => absurd (show (0 : Fin 2) ∈ ([1] : List (Fin 2)) from h) (by decide))]

theorem rowScatter_window1 (j : (⟨2, ![M, C]⟩ : Shape).Idx) : (rowScatter wf).window j 1 = (j 1).val := by
  unfold ScatterDims.window
  rw [dif_pos (show (1 : Fin 2) ∈ (rowScatter wf).sKept from (show (1 : Fin 2) ∈ ([1] : List (Fin 2)) by decide))]
  rfl

/-- Update index j lands at (i, c) exactly when its row's word lands at row i and its column is c. -/
theorem rowScatter_lands (j : (⟨2, ![M, C]⟩ : Shape).Idx) (idx : IVec ⟨2, ![M, 1]⟩ w) (i : Fin N) (c : Fin C) :
    (rowScatter wf).resultIdx? j idx = some (ix2 i c) ↔ land N (idx (ix2 (j 0) 0)) = some i ∧ j 1 = c := by
  rw [Cert.LibScatterSet.resultIdx?_eq_some_iff, land_eq_some_iff]
  constructor
  · intro h
    have h0 : (rowScatter wf).start j idx 0 + ((rowScatter wf).window j 0 : Int) = (i.val : Int) := h 0
    have h1 : (rowScatter wf).start j idx 1 + ((rowScatter wf).window j 1 : Int) = (c.val : Int) := h 1
    rw [rowScatter_start0, rowScatter_window0] at h0
    rw [rowScatter_start1, rowScatter_window1] at h1
    refine ⟨?_, Fin.ext ?_⟩
    · omega
    · omega
  · rintro ⟨h0, h1⟩ a
    match a with
    | ⟨0, _⟩ =>
      show (rowScatter wf).start j idx 0 + ((rowScatter wf).window j 0 : Int) = (i.val : Int)
      rw [rowScatter_start0, rowScatter_window0, h0]; simp
    | ⟨1, _⟩ =>
      show (rowScatter wf).start j idx 1 + ((rowScatter wf).window j 1 : Int) = (c.val : Int)
      rw [rowScatter_start1, rowScatter_window1, h1]; simp

/-- The sum over the update indices that land at (i, c) is the sum over the edges whose word lands at row i. -/
theorem rowScatter_sum (idx : IVec ⟨2, ![M, 1]⟩ w) (upd : (⟨2, ![M, C]⟩ : Shape).Idx → EReal) (i : Fin N) (c : Fin C) :
    (∑ j ∈ Finset.univ.filter (fun j => (rowScatter wf).resultIdx? j idx = some (ix2 i c)), upd j)
      = ∑ e ∈ Finset.univ.filter (fun e : Fin M => land N (idx (ix2 e 0)) = some i), upd (ix2 e c) := by
  refine Finset.sum_nbij' (fun j => (j 0 : Fin M)) (fun e => ix2 e c) ?_ ?_ ?_ ?_ ?_
  · intro j hj
    exact Finset.mem_filter.mpr ⟨Finset.mem_univ _, ((rowScatter_lands wf j idx i c).mp (Finset.mem_filter.mp hj).2).1⟩
  · intro e he
    exact Finset.mem_filter.mpr ⟨Finset.mem_univ _, (rowScatter_lands wf (ix2 e c) idx i c).mpr ⟨(Finset.mem_filter.mp he).2, rfl⟩⟩
  · intro j hj
    have h : j 1 = c := ((rowScatter_lands wf j idx i c).mp (Finset.mem_filter.mp hj).2).2
    show ix2 (j 0) c = j
    rw [← h]; exact (eq_ix2 j).symm
  · intro e _; rfl
  · intro j hj
    have h : j 1 = c := ((rowScatter_lands wf j idx i c).mp (Finset.mem_filter.mp hj).2).2
    show upd j = upd (ix2 (j 0) c)
    rw [← h]; exact congrArg upd (eq_ix2 j)

end RowScatter

/-- THE ROW SCATTER-ADD AT (i, c): the operand's element plus the sum of the updates' column c over the edges whose
    word lands at row i. -/
theorem scatterAdd_rows_apply {N M C w : ℕ} {φ : FTy} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ w)
    (upd : FVec Ideal ⟨2, ![M, C]⟩ φ) (i : Fin N) (c : Fin C) :
    Host.scatterAdd d x idx upd (ix2 i c)
      = x (ix2 i c) + ∑ e ∈ Finset.univ.filter (fun e : Fin M => land N (idx (ix2 e 0)) = some i), upd (ix2 e c) := by
  obtain ⟨uw, iw, sd, iv, wf⟩ := d
  dsimp only at h1 h2 h3 h4
  subst h1 h2 h3 h4
  show x (ix2 i c) + _ = _
  congr 1
  exact rowScatter_sum wf idx upd i c

/-! ## The accumulating scatter of an [M] update into [N] -/

abbrev vecScatter {N M : ℕ} (wf : ScatterDims.WF ⟨1, ![N]⟩ ⟨2, ![M, 1]⟩ ⟨1, ![M]⟩ [] [0] [0] 1) :
    ScatterDims ⟨1, ![N]⟩ ⟨2, ![M, 1]⟩ ⟨1, ![M]⟩ := ⟨[], [0], [0], 1, wf⟩

section VecScatter
variable {N M w : ℕ} (wf : ScatterDims.WF ⟨1, ![N]⟩ ⟨2, ![M, 1]⟩ ⟨1, ![M]⟩ [] [0] [0] 1)

theorem vecScatter_start0 (j : (⟨1, ![M]⟩ : Shape).Idx) (idx : IVec ⟨2, ![M, 1]⟩ w) :
    (vecScatter wf).start j idx 0 = (idx (ix2 (j 0) 0)).toInt := by
  unfold ScatterDims.start
  rw [dif_pos (show (0 : Fin 1) ∈ (vecScatter wf).scatterDimsToOperandDims from List.mem_singleton.mpr rfl)]
  congr 2
  funext b; refine Fin.ext ?_
  match b with
  | ⟨0, _⟩ => rfl
  | ⟨1, _⟩ => rfl

theorem vecScatter_window0 (j : (⟨1, ![M]⟩ : Shape).Idx) : (vecScatter wf).window j 0 = 0 := by
  unfold ScatterDims.window
  rw [dif_neg (show ¬ ((0 : Fin 1) ∈ (vecScatter wf).sKept) from fun h => absurd (show (0 : Fin 1) ∈ ([] : List (Fin 1)) from h) (by decide))]

theorem vecScatter_lands (j : (⟨1, ![M]⟩ : Shape).Idx) (idx : IVec ⟨2, ![M, 1]⟩ w) (i : Fin N) :
    (vecScatter wf).resultIdx? j idx = some (ix1 i) ↔ land N (idx (ix2 (j 0) 0)) = some i := by
  rw [Cert.LibScatterSet.resultIdx?_eq_some_iff, land_eq_some_iff]
  constructor
  · intro h
    have h0 : (vecScatter wf).start j idx 0 + ((vecScatter wf).window j 0 : Int) = (i.val : Int) := h 0
    rw [vecScatter_start0, vecScatter_window0] at h0
    omega
  · intro h0 a
    match a with
    | ⟨0, _⟩ =>
      show (vecScatter wf).start j idx 0 + ((vecScatter wf).window j 0 : Int) = (i.val : Int)
      rw [vecScatter_start0, vecScatter_window0, h0]; simp

theorem vecScatter_sum (idx : IVec ⟨2, ![M, 1]⟩ w) (upd : (⟨1, ![M]⟩ : Shape).Idx → EReal) (i : Fin N) :
    (∑ j ∈ Finset.univ.filter (fun j => (vecScatter wf).resultIdx? j idx = some (ix1 i)), upd j)
      = ∑ e ∈ Finset.univ.filter (fun e : Fin M => land N (idx (ix2 e 0)) = some i), upd (ix1 e) := by
  refine Finset.sum_nbij' (fun j => (j 0 : Fin M)) (fun e => ix1 e) ?_ ?_ ?_ ?_ ?_
  · intro j hj
    exact Finset.mem_filter.mpr ⟨Finset.mem_univ _, (vecScatter_lands wf j idx i).mp (Finset.mem_filter.mp hj).2⟩
  · intro e he
    exact Finset.mem_filter.mpr ⟨Finset.mem_univ _, (vecScatter_lands wf (ix1 e) idx i).mpr (Finset.mem_filter.mp he).2⟩
  · intro j _; exact (eq_ix1 j).symm
  · intro e _; rfl
  · intro j _; exact congrArg upd (eq_ix1 j)

end VecScatter

/-- THE VECTOR SCATTER-ADD AT i: the operand's entry plus the sum of the updates over the edges whose word lands at i. -/
theorem scatterAdd_vec_apply {N M w : ℕ} {φ : FTy} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ w)
    (upd : FVec Ideal ⟨1, ![M]⟩ φ) (i : Fin N) :
    Host.scatterAdd d x idx upd (ix1 i)
      = x (ix1 i) + ∑ e ∈ Finset.univ.filter (fun e : Fin M => land N (idx (ix2 e 0)) = some i), upd (ix1 e) := by
  obtain ⟨uw, iw, sd, iv, wf⟩ := d
  dsimp only at h1 h2 h3 h4
  subst h1 h2 h3 h4
  show x (ix1 i) + _ = _
  congr 1
  exact vecScatter_sum wf idx upd i

/-! ## The row gather of [N, C] at a column of words -/

/-- THE ROW GATHER AT (e, c): the operand's row `pos` of word e, column c. -/
theorem gather_rows_apply {α : Type} {N M C w : ℕ} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (e : Fin M) (c : Fin C) :
    Host.gather d x idx (ix2 e c) = x (ix2 (pos N hN (idx (ix2 e 0))) c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (ix2 e 0)).toInt.toNat (N - 1)
    congr 4
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr ⟨(show ¬ ((1 : Fin 2) ∈ ([0] : List (Fin 2))) by decide), List.not_mem_nil⟩)]
    simp only [Nat.add_zero, Nat.zero_add]
    rfl

/-! ## The gather of [N] at a column of words -/

/-- THE VECTOR GATHER AT e: the operand's entry `pos` of word e. -/
theorem gather_vec_apply {α : Type} {N M w : ℕ} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (e : Fin M) :
    Host.gather d x idx (ix1 e) = x (ix1 (pos N hN (idx (ix2 e 0)))) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (ix2 e 0)).toInt.toNat (N - 1)
    congr 4
    funext b; refine Fin.ext ?_
    match b with
    | ⟨0, _⟩ => rfl
    | ⟨1, _⟩ => rfl

end Cert.LibEdgeOps

end
-- ==== Proof.GcnAlgebra.lean ====
/-
  The algebra of a degree-normalised neighbour aggregation, on the extended reals.

  A graph-convolution layer sums, over the edges e that end at node i, the source node's value weighted by
  d(src e) · d(dst e), where d is the inverse square root of the node's degree. Because dst e = i on those edges, the
  weight separates: scale every node's value by d first, sum over the incoming edges, and scale the sum by d(i). And
  because the channel transform is linear it may be applied before or after the sum. Both rearrangements move a factor
  across a finite sum, which on the extended reals is sound only for finite factors: every quantity here is a real number
  (`IsReal`), and the laws are proved in ℝ and carried over by the coercion.
-/
import Mathlib.Data.EReal.Inv
import Mathlib.Algebra.BigOperators.Group.Finset.Basic
import Mathlib.Algebra.BigOperators.Ring.Finset
import Mathlib.Tactic.Ring

noncomputable section

namespace Cert.GcnAlgebra

open scoped BigOperators

/-- An extended real that is a real number. -/
def IsReal (x : EReal) : Prop := ∃ r : ℝ, x = (r : EReal)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b))⟩
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A sum of ones over a finite set is its cardinal, a real number. -/
theorem sum_one_eq_card {ι : Type*} (s : Finset ι) : (0 : EReal) + ∑ _i ∈ s, (1 : EReal) = ((s.card : ℝ) : EReal) := by
  rw [zero_add, ← EReal.coe_one, ← coe_sum]
  simp

variable {E V : Type}

/-- THE SEPARABLE WEIGHT, WITH A TRANSFORM AFTER THE SUM. On the edges `A` that end at node `i`: the node values `g` scaled by
    `d` at the source, summed, the sum scaled by `d i` and then multiplied by `w`, is the sum of the values multiplied by
    `w` first and weighted by `d (src) · d (dst)` per edge. -/
theorem agg_scale_mul (A : Finset E) (sp dp : E → V) (i : V) (hA : ∀ e ∈ A, dp e = i) (d g : V → EReal) (w : EReal)
    (hd : ∀ v, IsReal (d v)) (hg : ∀ v, IsReal (g v)) (hw : IsReal w) :
    (d i * (0 + ∑ e ∈ A, d (sp e) * g (sp e))) * w = 0 + ∑ e ∈ A, (d (sp e) * d (dp e)) * (g (sp e) * w) := by
  choose dr hdr using hd
  choose gr hgr using hg
  obtain ⟨wr, rfl⟩ := hw
  simp only [hdr, hgr, zero_add, ← EReal.coe_mul, ← coe_sum]
  rw [EReal.coe_eq_coe_iff, Finset.mul_sum, Finset.sum_mul]
  refine Finset.sum_congr rfl fun e he => ?_
  rw [hA e he]; ring

/-- THE SEPARABLE WEIGHT. The same without a transform after the sum. -/
theorem agg_scale (A : Finset E) (sp dp : E → V) (i : V) (hA : ∀ e ∈ A, dp e = i) (d g : V → EReal)
    (hd : ∀ v, IsReal (d v)) (hg : ∀ v, IsReal (g v)) :
    d i * (0 + ∑ e ∈ A, d (sp e) * g (sp e)) = 0 + ∑ e ∈ A, (d (sp e) * d (dp e)) * g (sp e) := by
  choose dr hdr using hd
  choose gr hgr using hg
  simp only [hdr, hgr, zero_add, ← EReal.coe_mul, ← coe_sum]
  rw [EReal.coe_eq_coe_iff, Finset.mul_sum]
  refine Finset.sum_congr rfl fun e he => ?_
  rw [hA e he]; ring

end Cert.GcnAlgebra

end
-- ==== Proof.GcnSpec.lean ====
/-
  The two-layer graph convolution, in the two arrangements, element by element.

  Nodes 0 … 99999, edges 0 … 3299999. Edge e carries a destination word and a source word. Under the scatter's rule the
  destination word `land`s at a node or is dropped; `inc i` is the set of edges that land at node i. Under the gather's
  rule the source word names the node `sp e` and the (wrapped) destination word the node `dp e`; an edge that lands at
  i has `dp e = i` (`hdp`). The degree of i is the number of edges landing there and `dv i` its inverse square root
  (0 at degree 0), always a real number.

  ONE arrangement scales the node features by dv, sums them over the incoming edges, scales the sum by dv again and only
  then applies the first layer's weights; for the second layer it applies the weights first, scales, sums and scales. THE
  OTHER weights each incoming edge by dv(src) · dv(dst) and sums the transformed features. For real features, weights and
  first bias the two give the same output: `kOut_eq_rOut`, by the separable-weight laws of the algebra module.
-/
import Idealize.ShloMosaic.PureOps.Ideal
import Idealize.ShloMosaic.PureOps.Ideal.Laws
import Idealize.ShloMosaic.Lib.IdealHost
import Idealize.ShloMosaic.Lib.ValueIdx
import proofs.«165192_j47605417509108_2_alg».proof.Proof.LibEdgeOps
import proofs.«165192_j47605417509108_2_alg».proof.Proof.GcnAlgebra

noncomputable section

namespace Cert.GcnSpec

open Idealize.ShloMosaic Idealize.ShloMosaic.ValueIdx Cert.LibEdgeOps Cert.GcnAlgebra
open scoped BigOperators

/-- The inverse square root of a degree, zero at degree zero: 1/sqrt(max(x, 1)) where x > 0, else 0. -/
def dinvOf (x : EReal) : EReal :=
  Scalar.select (Ideal.cmp .ogt x (Ideal.ofBits .f32 0x00000000#32))
    (Ideal.rsqrt (max x (Ideal.ofBits .f32 0x3F800000#32))) (Ideal.ofBits .f32 0x00000000#32)

/-- At a natural number it is a real number. -/
theorem dinvOf_isReal (n : ℕ) : IsReal (dinvOf ((n : ℝ) : EReal)) := by
  unfold dinvOf Scalar.select
  split
  · rw [Ideal.ofBits_one_f32, ← EReal.coe_one, ← EReal.coe_strictMono.monotone.map_max, Ideal.rsqrt_coe]
    have h1 : (0 : ℝ) < max (n : ℝ) 1 := lt_of_lt_of_le one_pos (le_max_right _ _)
    rw [if_neg (not_lt.mpr h1.le), if_neg (ne_of_gt h1)]
    exact IsReal.coe _
  · rw [Ideal.ofBits_zero_f32]; exact IsReal.zero

section
variable (dst src dstn : IVec ⟨2, ![3300000, 1]⟩ 32)
variable (x : (⟨2, ![100000, 1]⟩ : Shape).Idx → EReal) (W1 : (⟨2, ![1, 16]⟩ : Shape).Idx → EReal)
  (b1 : (⟨1, ![16]⟩ : Shape).Idx → EReal) (W2 : (⟨2, ![16, 2]⟩ : Shape).Idx → EReal) (b2 : (⟨1, ![2]⟩ : Shape).Idx → EReal)

/-- The edges that land at node i. -/
def inc (i : Fin 100000) : Finset (Fin 3300000) :=
  Finset.univ.filter (fun e : Fin 3300000 => land 100000 (dst (ix2 e 0)) = some i)
/-- The node an edge's source word names. -/
def sp (e : Fin 3300000) : Fin 100000 := pos 100000 (by decide) (src (ix2 e 0))
/-- The node an edge's wrapped destination word names. -/
def dp (e : Fin 3300000) : Fin 100000 := pos 100000 (by decide) (dstn (ix2 e 0))
/-- The degree: one per edge landing at the node. -/
def deg (i : Fin 100000) : EReal := Ideal.ofBits .f32 0x00000000#32 + ∑ _e ∈ inc dst i, Ideal.ofBits .f32 0x3F800000#32
/-- Its inverse square root. -/
def dv (i : Fin 100000) : EReal := dinvOf (deg dst i)

theorem deg_eq_card (i : Fin 100000) : deg dst i = (((inc dst i).card : ℝ) : EReal) := by
  unfold deg
  rw [Ideal.ofBits_zero_f32, Ideal.ofBits_one_f32]
  exact sum_one_eq_card _

theorem dv_isReal (i : Fin 100000) : IsReal (dv dst i) := by
  unfold dv; rw [deg_eq_card]; exact dinvOf_isReal _

/-! ## Scale, aggregate, scale, transform -/

def kRaw1 (i : Fin 100000) : EReal :=
  Ideal.ofBits .f32 0x00000000#32 + ∑ e ∈ inc dst i, dv dst (sp src e) * x (ix2 (sp src e) (0 : Fin 1))
def kHid (i : Fin 100000) (q : Fin 16) : EReal :=
  max ((∑ k : Fin 1, (dv dst i * kRaw1 dst src x i) * W1 (ix2 k q)) + b1 (ix1 q)) (Ideal.ofBits .f32 0x00000000#32)
def kFeat (i : Fin 100000) (q : Fin 2) : EReal :=
  dv dst i * ∑ k : Fin 16, kHid dst src x W1 b1 i k * W2 (ix2 k q)
def kRaw2 (i : Fin 100000) (q : Fin 2) : EReal :=
  Ideal.ofBits .f32 0x00000000#32 + ∑ e ∈ inc dst i, kFeat dst src x W1 b1 W2 (sp src e) q
def kOut (i : Fin 100000) (q : Fin 2) : EReal :=
  dv dst i * kRaw2 dst src x W1 b1 W2 i q + b2 (ix1 q)

/-! ## Transform, weight each edge, aggregate -/

def norm (e : Fin 3300000) : EReal := dv dst (sp src e) * dv dst (dp dstn e)
def rXW (i : Fin 100000) (q : Fin 16) : EReal := ∑ k : Fin 1, x (ix2 i k) * W1 (ix2 k q)
def rHid (i : Fin 100000) (q : Fin 16) : EReal :=
  max ((Ideal.ofBits .f32 0x00000000#32 + ∑ e ∈ inc dst i, norm dst src dstn e * rXW x W1 (sp src e) q) + b1 (ix1 q))
    (Ideal.ofBits .f32 0x00000000#32)
def rHW (i : Fin 100000) (q : Fin 2) : EReal := ∑ k : Fin 16, rHid dst src dstn x W1 b1 i k * W2 (ix2 k q)
def rOut (i : Fin 100000) (q : Fin 2) : EReal :=
  (Ideal.ofBits .f32 0x00000000#32 + ∑ e ∈ inc dst i, norm dst src dstn e * rHW dst src dstn x W1 b1 W2 (sp src e) q) + b2 (ix1 q)

/-! ## The two agree -/

variable (hdp : ∀ (e : Fin 3300000) (i : Fin 100000), land 100000 (dst (ix2 e 0)) = some i → dp dstn e = i)
variable (hx : ∀ j, IsReal (x j)) (hW1 : ∀ j, IsReal (W1 j)) (hb1 : ∀ j, IsReal (b1 j)) (hW2 : ∀ j, IsReal (W2 j))

include hdp in
theorem dp_of_mem_inc (i : Fin 100000) (e : Fin 3300000) (he : e ∈ inc dst i) : dp dstn e = i :=
  hdp e i (Finset.mem_filter.mp he).2

include hdp hx hW1 in
/-- The hidden layers agree. -/
theorem kHid_eq_rHid (i : Fin 100000) (q : Fin 16) : kHid dst src x W1 b1 i q = rHid dst src dstn x W1 b1 i q := by
  have h : (∑ k : Fin 1, (dv dst i * kRaw1 dst src x i) * W1 (ix2 k q))
      = Ideal.ofBits .f32 0x00000000#32 + ∑ e ∈ inc dst i, norm dst src dstn e * rXW x W1 (sp src e) q := by
    rw [Fin.sum_univ_one]
    unfold kRaw1 norm rXW
    simp only [Fin.sum_univ_one, Ideal.ofBits_zero_f32]
    exact agg_scale_mul (inc dst i) (sp src) (dp dstn) i (dp_of_mem_inc dst dstn hdp i) (dv dst)
      (fun v => x (ix2 v (0 : Fin 1))) (W1 (ix2 (0 : Fin 1) q)) (dv_isReal dst) (fun v => hx _) (hW1 _)
  unfold kHid rHid
  rw [h]

include hx hW1 hb1 in
theorem rHid_isReal (i : Fin 100000) (q : Fin 16) : IsReal (rHid dst src dstn x W1 b1 i q) := by
  unfold rHid
  rw [Ideal.ofBits_zero_f32]
  refine IsReal.max (IsReal.add (IsReal.add IsReal.zero (IsReal.sum _ _ fun e _ => ?_)) (hb1 _)) IsReal.zero
  exact IsReal.mul (IsReal.mul (dv_isReal dst _) (dv_isReal dst _)) (IsReal.sum _ _ fun k _ => IsReal.mul (hx _) (hW1 _))

include hdp hx hW1 hb1 hW2 in
/-- THE OUTPUTS AGREE. -/
theorem kOut_eq_rOut (i : Fin 100000) (q : Fin 2) :
    kOut dst src x W1 b1 W2 b2 i q = rOut dst src dstn x W1 b1 W2 b2 i q := by
  have h : dv dst i * kRaw2 dst src x W1 b1 W2 i q
      = Ideal.ofBits .f32 0x00000000#32 + ∑ e ∈ inc dst i, norm dst src dstn e * rHW dst src dstn x W1 b1 W2 (sp src e) q := by
    unfold kRaw2 kFeat rHW norm
    simp only [kHid_eq_rHid dst src dstn x W1 b1 hdp hx hW1, Ideal.ofBits_zero_f32]
    exact agg_scale (inc dst i) (sp src) (dp dstn) i (dp_of_mem_inc dst dstn hdp i) (dv dst)
      (fun v => ∑ k : Fin 16, rHid dst src dstn x W1 b1 v k * W2 (ix2 k q)) (dv_isReal dst)
      (fun v => IsReal.sum _ _ fun k _ => IsReal.mul (rHid_isReal dst src dstn x W1 b1 hx hW1 hb1 v k) (hW2 _))
  unfold kOut rOut
  rw [h]

end

end Cert.GcnSpec

end
-- ==== Proof.KRead.lean ====
/-
  The kernel program's result, element by element.

  Each stage of `KValue.result` read at an element: the degree column is the count of the edges landing at the node; the
  column d is its inverse square root; a scatter-add at (i, q) is the sum over the edges landing at i; a gather at edge e
  reads the row the edge's source word names; the regions' arrays are their formulas. Together: the result at (i, q) is
  the scale–aggregate–scale arrangement `GcnSpec.kOut` over the program's destination and source words.
-/
import proofs.«165192_j47605417509108_2_alg».proof.Proof.KValue
import proofs.«165192_j47605417509108_2_alg».proof.Proof.GcnSpec
import proofs.«165192_j47605417509108_2_alg».proof.Proof.LibColumn

set_option maxRecDepth 16384

noncomputable section

namespace Cert.KernelIdeal.KRead

open Cert.KernelIdeal Cert.KernelIdeal.Gen
open Idealize.ShloMosaic Idealize.ShloMosaic.ValueIdx
open Cert.KernelIdeal.Region0 Cert.KernelIdeal.Region1 Cert.KernelIdeal.Region2 Cert.KernelIdeal.Region3 Cert.KernelIdeal.KValue
open Cert.LibEdgeOps Cert.GcnSpec

variable (a0 : FVec Ideal S100000x1 .f32) (a1 : IVec S2x3200000 32) (a2 : FVec Ideal S1x16 .f32) (a3 : FVec Ideal S16 .f32)
  (a4 : FVec Ideal S16x2 .f32) (a5 : FVec Ideal S2 .f32)

/-- The degree column at node i: one per edge landing at i. -/
theorem degCol_apply (i : Fin 100000) (k : Fin 1) : degCol a1 (ix2 i k) = deg (dstIdx a1) i := by
  unfold degCol
  rw [Cert.LibColumn.bcastInDim_a_a1_apply _ bcast_S100000_S100000x1_0 i k,
    scatterAdd_vec_apply scatter_S100000_S3300000x1_S3300000_n_0_0_1 rfl rfl rfl rfl]
  rfl

/-- The column d at node i. -/
theorem dinvCol_apply (i : Fin 100000) (k : Fin 1) : dinvCol (degCol a1) (ix2 i k) = dv (dstIdx a1) i := by
  show GcnSpec.dinvOf (degCol a1 (ix2 i k)) = GcnSpec.dinvOf (deg (dstIdx a1) i)
  rw [degCol_apply]

/-- The scaled feature column at node r. -/
theorem scaledCol_apply (r : Fin 100000) (k : Fin 1) :
    scaledCol (degCol a1) a0 (ix2 r k) = dv (dstIdx a1) r * a0 (ix2 r k) := by
  show GcnSpec.dinvOf (degCol a1 (ix2 r k)) * a0 (ix2 r k) = GcnSpec.dinvOf (deg (dstIdx a1) r) * a0 (ix2 r k)
  rw [degCol_apply]

/-- The first aggregate at node i. -/
theorem raw1_apply (i : Fin 100000) (k : Fin 1) : raw1 a0 a1 (ix2 i k) = kRaw1 (dstIdx a1) (srcIdx a1) a0 i := by
  have hk : k = 0 := Subsingleton.elim _ _
  subst hk
  unfold raw1
  rw [scatterAdd_rows_apply scatter_S100000x1_S3300000x1_S3300000x1_1_0_0_1 rfl rfl rfl rfl]
  unfold kRaw1
  refine congrArg (fun s => Ideal.ofBits .f32 0x00000000#32 + s) ?_
  refine Finset.sum_congr rfl fun e _ => ?_
  rw [gather_rows_apply (by decide) gather_S100000x1_S3300000x1_S3300000x1_1_0_n_n_0_1_11 rfl rfl rfl rfl rfl rfl rfl,
    scaledCol_apply]
  rfl

/-- The hidden layer at (r, q). -/
theorem hid_apply (r : Fin 100000) (q : Fin 16) :
    hid a0 a1 a2 a3 (ix2 r q) = kHid (dstIdx a1) (srcIdx a1) a0 a2 a3 r q := by
  unfold hid
  rw [hiddenArr_apply]
  unfold hiddenAt kHid
  rw [ValueIdx.shapeCast_a_1a_apply a3 shapeCasts_S16_S1x16 0 q]
  have h : ∀ k : Fin 1, (dinvCol (degCol a1) (ix2 r k) * raw1 a0 a1 (ix2 r k)) * a2 (ix2 k q)
      = (dv (dstIdx a1) r * kRaw1 (dstIdx a1) (srcIdx a1) a0 r) * a2 (ix2 k q) := fun k => by
    rw [dinvCol_apply, raw1_apply]
  rw [Finset.sum_congr rfl fun k _ => h k]

/-- The second layer's transformed, scaled features at (r, q). -/
theorem feat2_apply (r : Fin 100000) (q : Fin 2) :
    feat2 a0 a1 a2 a3 a4 (ix2 r q) = kFeat (dstIdx a1) (srcIdx a1) a0 a2 a3 a4 r q := by
  unfold feat2
  rw [scaledArr_apply]
  unfold scaledAt kFeat
  rw [dinvCol_apply]
  have h : ∀ k : Fin 16, hid a0 a1 a2 a3 (ix2 r k) * a4 (ix2 k q)
      = kHid (dstIdx a1) (srcIdx a1) a0 a2 a3 r k * a4 (ix2 k q) := fun k => by rw [hid_apply]
  rw [Finset.sum_congr rfl fun k _ => h k]

/-- The second aggregate at (i, q). -/
theorem raw2_apply (i : Fin 100000) (q : Fin 2) :
    raw2 a0 a1 a2 a3 a4 (ix2 i q) = kRaw2 (dstIdx a1) (srcIdx a1) a0 a2 a3 a4 i q := by
  unfold raw2
  rw [scatterAdd_rows_apply scatter_S100000x2_S3300000x1_S3300000x2_1_0_0_1 rfl rfl rfl rfl]
  unfold kRaw2
  refine congrArg (fun s => Ideal.ofBits .f32 0x00000000#32 + s) ?_
  refine Finset.sum_congr rfl fun e _ => ?_
  rw [gather_rows_apply (by decide) gather_S100000x2_S3300000x1_S3300000x2_1_0_n_n_0_1_12 rfl rfl rfl rfl rfl rfl rfl,
    feat2_apply]
  rfl

/-- THE RESULT AT (i, q). -/
theorem result_apply (i : Fin 100000) (q : Fin 2) :
    result a0 a1 a2 a3 a4 a5 (ix2 i q) = kOut (dstIdx a1) (srcIdx a1) a0 a2 a3 a4 a5 i q := by
  unfold result
  rw [outArr_apply]
  unfold outAt kOut
  rw [dinvCol_apply, raw2_apply, ValueIdx.shapeCast_a_1a_apply a5 shapeCasts_S2_S1x2 0 q]

end Cert.KernelIdeal.KRead

end
-- ==== Proof.RefValue.lean ====
/-
  The reference program's result, element by element.

  The reference computes each graph-convolution layer as: degrees by a scatter-add of ones at the destination words; their
  inverse square roots d; per edge the weight d(src) · d(dst), both gathered; the transformed features gathered at the source
  words, multiplied by the edge weight and scatter-added at the destination words; plus the bias. Read at an element, with
  a scatter-add as the sum over the edges that land there and a gather as a read at the node the word names, the result at
  (i, q) is the weight-each-edge arrangement `GcnSpec.rOut` over the program's destination, source and wrapped destination
  words. An edge whose destination word lands at node i has a non-negative word, which the wrap leaves alone, so its
  gathered node is i (`dst_wrap`).
-/
import proofs.«165192_j47605417509108_2_alg».proof.Proof.RefReadP
import proofs.«165192_j47605417509108_2_alg».proof.Proof.GcnSpec
import proofs.«165192_j47605417509108_2_alg».proof.Proof.LibColumn

set_option maxRecDepth 16384

noncomputable section

namespace Cert.ReferenceIdeal.RefValue

open Cert.ReferenceIdeal Cert.ReferenceIdeal.Gen Cert.ReferenceIdeal.ReadP
open Idealize.ShloMosaic Idealize.ShloMosaic.ValueIdx
open Cert.LibEdgeOps Cert.GcnSpec

variable (x0 : (⟨S100000x1, .f32⟩ : BufTy).Contents (Elt Ideal)) (x1 : (⟨S2x3200000, .i32⟩ : BufTy).Contents (Elt Ideal))
  (x2 : (⟨S1x16, .f32⟩ : BufTy).Contents (Elt Ideal)) (x3 : (⟨S16, .f32⟩ : BufTy).Contents (Elt Ideal))
  (x4 : (⟨S16x2, .f32⟩ : BufTy).Contents (Elt Ideal)) (x5 : (⟨S2, .f32⟩ : BufTy).Contents (Elt Ideal))

/-- The scatters' index column. -/
abbrev dstW : IVec S3300000x1 32 := val_main_v9 (F := Ideal) x1
/-- The gathers' index column of source words. -/
abbrev srcW : IVec S3300000x1 32 := val_main_v22 (F := Ideal) x1
/-- The gather's index column of wrapped destination words. -/
abbrev dstnW : IVec S3300000x1 32 := val_main_v29 (F := Ideal) x1

/-! ## The word columns the program builds again for each use are one array -/

theorem v44_eq : val_main_v44 (F := Ideal) x1 = dstW x1 := rfl
theorem v52_eq : val_main_v52 (F := Ideal) x1 = dstW x1 := rfl
theorem v87_eq : val_main_v87 (F := Ideal) x1 = dstW x1 := rfl
theorem v39_eq : val_main_v39 (F := Ideal) x1 = srcW x1 := rfl
theorem v65_eq : val_main_v65 (F := Ideal) x1 = srcW x1 := rfl
theorem v82_eq : val_main_v82 (F := Ideal) x1 = srcW x1 := rfl
theorem v72_eq : val_main_v72 (F := Ideal) x1 = dstnW x1 := rfl

/-! ## An edge that lands at i is gathered from i -/

theorem dst_wrap (e : Fin 3300000) (i : Fin 100000) (h : land 100000 (dstW x1 (ix2 e 0)) = some i) :
    dp (dstnW x1) e = i := by
  have h6 : dstW x1 (ix2 e 0) = val_main_v6 (F := Ideal) x1 (ix1 e) := by
    unfold dstW val_main_v9
    exact Cert.LibColumn.bcastInDim_a_a1_apply _ bcast_S3300000_S3300000x1_0 e 0
  have hn : dstnW x1 (ix2 e 0) = val_main_v6 (F := Ideal) x1 (ix1 e) := by
    unfold dstnW val_main_v29
    rw [Cert.LibColumn.bcastInDim_a_a1_apply _ bcast_S3300000_S3300000x1_0 e 0]
    show Scalar.select (IntOp.cmpi .slt (val_main_v6 (F := Ideal) x1 (ix1 e)) (0#32))
        (IntOp.addi (val_main_v6 (F := Ideal) x1 (ix1 e)) (100000#32)) (val_main_v6 (F := Ideal) x1 (ix1 e)) = _
    have hpos : ¬ ((val_main_v6 (F := Ideal) x1 (ix1 e)).toInt < (0#32 : BitVec 32).toInt) := by
      rw [h6, land_eq_some_iff] at h
      rw [h]
      show ¬ ((i.val : Int) < 0)
      omega
    have hc : IntOp.cmpi .slt (val_main_v6 (F := Ideal) x1 (ix1 e)) (0#32) = 0#1 := by
      show BitVec.ofBool (decide _) = 0#1
      rw [decide_eq_false hpos]; rfl
    rw [hc]; rfl
  unfold dp
  rw [hn, ← h6]
  exact pos_of_land (by decide) _ i h

/-! ## Degrees and their inverse square roots -/

theorem deg_apply (i : Fin 100000) : val_main_v10 (F := Ideal) x1 (ix1 i) = deg (dstW x1) i := by
  unfold val_main_v10
  rw [scatterAdd_vec_apply scatter_S100000_S3300000x1_S3300000_n_0_0_1 rfl rfl rfl rfl]
  rfl

theorem dinv_apply (i : Fin 100000) : val_main_v16 (F := Ideal) x1 (ix1 i) = dv (dstW x1) i := by
  rw [val_main_v16_apply, val_main_v12_apply, val_main_v15_apply, val_main_v14_apply, deg_apply]
  have e11 : val_main_v11 (F := Ideal) (ix1 i) = Ideal.ofBits .f32 0x00000000#32 := rfl
  have e13 : val_main_v13 (F := Ideal) (ix1 i) = Ideal.ofBits .f32 0x3F800000#32 := rfl
  have e01 : val_main_call0_v1 (F := Ideal) (ix1 i) = Ideal.ofBits .f32 0x00000000#32 := rfl
  rw [e11, e13, e01]
  unfold dv
  generalize deg (dstW x1) i = d
  rfl

/-! ## The edge weights -/

theorem dsrc_apply (e : Fin 3300000) : val_main_v23 (F := Ideal) x1 (ix1 e) = dv (dstW x1) (sp (srcW x1) e) := by
  unfold val_main_v23
  rw [gather_vec_apply (by decide) gather_S100000_S3300000x1_S3300000_n_0_n_n_0_1_1 rfl rfl rfl rfl rfl rfl rfl]
  exact dinv_apply x1 (sp (srcW x1) e)
theorem ddst_apply (e : Fin 3300000) : val_main_v30 (F := Ideal) x1 (ix1 e) = dv (dstW x1) (dp (dstnW x1) e) := by
  unfold val_main_v30
  rw [gather_vec_apply (by decide) gather_S100000_S3300000x1_S3300000_n_0_n_n_0_1_1 rfl rfl rfl rfl rfl rfl rfl]
  exact dinv_apply x1 (dp (dstnW x1) e)
theorem norm_apply (e : Fin 3300000) : val_main_v31 (F := Ideal) x1 (ix1 e) = GcnSpec.norm (dstW x1) (srcW x1) (dstnW x1) e := by
  rw [val_main_v31_apply, dsrc_apply, ddst_apply]
  unfold GcnSpec.norm
  generalize dv (dstW x1) (sp (srcW x1) e) = a
  generalize dv (dstW x1) (dp (dstnW x1) e) = b
  rfl

/-! ## The first layer -/

theorem xw_apply (r : Fin 100000) (q : Fin 16) : val_main_v32 (F := Ideal) x0 x2 (ix2 r q) = rXW x0 x2 r q := by
  rw [val_main_v32_apply]
  unfold rXW
  refine Finset.sum_congr rfl fun k _ => ?_
  have el : lidx_main_v32 (ix2 r q) k = ix2 r k := funext fun a => Fin.ext (by match a with | ⟨0, _⟩ => rfl | ⟨1, _⟩ => rfl)
  have er : ridx_main_v32 (ix2 r q) k = ix2 k q := funext fun a => Fin.ext (by match a with | ⟨0, _⟩ => rfl | ⟨1, _⟩ => rfl)
  rw [el, er]

theorem msg1_apply (e : Fin 3300000) (q : Fin 16) :
    val_main_v42 (F := Ideal) x0 x1 x2 (ix2 e q)
      = GcnSpec.norm (dstW x1) (srcW x1) (dstnW x1) e * rXW x0 x2 (sp (srcW x1) e) q := by
  rw [val_main_v42_apply]
  have h41 : val_main_v41 (F := Ideal) x1 (ix2 e q) = val_main_v31 (F := Ideal) x1 (ix1 e) := by
    unfold val_main_v41
    rw [Cert.LibColumn.bcastInDim_a1_ab_apply _ bcast_S3300000x1_S3300000x16_0_1 e q]
    unfold val_main_v33
    exact Cert.LibColumn.bcastInDim_a_a1_apply _ bcast_S3300000_S3300000x1_0 e 0
  have h40 : val_main_v40 (F := Ideal) x0 x1 x2 (ix2 e q) = val_main_v32 (F := Ideal) x0 x2 (ix2 (sp (srcW x1) e) q) := by
    unfold val_main_v40
    rw [v39_eq, gather_rows_apply (by decide) gather_S100000x16_S3300000x1_S3300000x16_1_0_n_n_0_1_116 rfl rfl rfl rfl rfl rfl rfl]
    rfl
  rw [h41, h40, norm_apply, xw_apply]
  generalize GcnSpec.norm (dstW x1) (srcW x1) (dstnW x1) e = a
  generalize rXW x0 x2 (sp (srcW x1) e) q = b
  rfl

theorem agg1_apply (i : Fin 100000) (q : Fin 16) :
    val_main_v45 (F := Ideal) x0 x1 x2 (ix2 i q)
      = Ideal.ofBits .f32 0x00000000#32 + ∑ e ∈ inc (dstW x1) i,
          GcnSpec.norm (dstW x1) (srcW x1) (dstnW x1) e * rXW x0 x2 (sp (srcW x1) e) q := by
  unfold val_main_v45
  rw [v44_eq, scatterAdd_rows_apply scatter_S100000x16_S3300000x1_S3300000x16_1_0_0_1 rfl rfl rfl rfl]
  refine congrArg (fun s => Ideal.ofBits .f32 0x00000000#32 + s) ?_
  refine Finset.sum_congr rfl fun e _ => ?_
  exact msg1_apply x0 x1 x2 e q

theorem bias1_apply (i : Fin 100000) (q : Fin 16) : val_main_v47 (F := Ideal) x3 (ix2 i q) = x3 (ix1 q) := by
  unfold val_main_v47
  rw [Cert.LibColumn.bcastInDim_1b_ab_apply _ bcast_S1x16_S100000x16_0_1 i q]
  unfold val_main_v46
  exact Cert.LibColumn.bcastInDim_b_1b_apply x3 bcast_S16_S1x16_1 0 q

theorem hid_apply (i : Fin 100000) (q : Fin 16) :
    val_main_v49 (F := Ideal) x0 x1 x2 x3 (ix2 i q) = rHid (dstW x1) (srcW x1) (dstnW x1) x0 x2 x3 i q := by
  rw [val_main_v49_apply, val_main_v48_apply, agg1_apply, bias1_apply]
  have e0 : val_main_call1_v0 (F := Ideal) (ix2 i q) = Ideal.ofBits .f32 0x00000000#32 := rfl
  rw [e0]
  unfold rHid
  generalize (∑ e ∈ inc (dstW x1) i, GcnSpec.norm (dstW x1) (srcW x1) (dstnW x1) e * rXW x0 x2 (sp (srcW x1) e) q) = s
  rfl

/-! ## The second layer -/

theorem hw_apply (r : Fin 100000) (q : Fin 2) :
    val_main_v75 (F := Ideal) x0 x1 x2 x3 x4 (ix2 r q) = rHW (dstW x1) (srcW x1) (dstnW x1) x0 x2 x3 x4 r q := by
  rw [val_main_v75_apply]
  unfold rHW
  refine Finset.sum_congr rfl fun k _ => ?_
  have el : lidx_main_v75 (ix2 r q) k = ix2 r k := funext fun a => Fin.ext (by match a with | ⟨0, _⟩ => rfl | ⟨1, _⟩ => rfl)
  have er : ridx_main_v75 (ix2 r q) k = ix2 k q := funext fun a => Fin.ext (by match a with | ⟨0, _⟩ => rfl | ⟨1, _⟩ => rfl)
  rw [el, er, hid_apply]

theorem deg2_apply (i : Fin 100000) : val_main_v53 (F := Ideal) x1 (ix1 i) = deg (dstW x1) i := by
  unfold val_main_v53
  rw [v52_eq, scatterAdd_vec_apply scatter_S100000_S3300000x1_S3300000_n_0_0_1 rfl rfl rfl rfl]
  rfl

theorem dinv2_apply (i : Fin 100000) : val_main_v59 (F := Ideal) x1 (ix1 i) = dv (dstW x1) i := by
  rw [val_main_v59_apply, val_main_v55_apply, val_main_v58_apply, val_main_v57_apply, deg2_apply]
  have e11 : val_main_v54 (F := Ideal) (ix1 i) = Ideal.ofBits .f32 0x00000000#32 := rfl
  have e13 : val_main_v56 (F := Ideal) (ix1 i) = Ideal.ofBits .f32 0x3F800000#32 := rfl
  have e01 : val_main_call2_v1 (F := Ideal) (ix1 i) = Ideal.ofBits .f32 0x00000000#32 := rfl
  rw [e11, e13, e01]
  unfold dv
  generalize deg (dstW x1) i = d
  rfl

theorem dsrc2_apply (e : Fin 3300000) : val_main_v66 (F := Ideal) x1 (ix1 e) = dv (dstW x1) (sp (srcW x1) e) := by
  unfold val_main_v66
  rw [v65_eq, gather_vec_apply (by decide) gather_S100000_S3300000x1_S3300000_n_0_n_n_0_1_1 rfl rfl rfl rfl rfl rfl rfl]
  exact dinv2_apply x1 (sp (srcW x1) e)
theorem ddst2_apply (e : Fin 3300000) : val_main_v73 (F := Ideal) x1 (ix1 e) = dv (dstW x1) (dp (dstnW x1) e) := by
  unfold val_main_v73
  rw [v72_eq, gather_vec_apply (by decide) gather_S100000_S3300000x1_S3300000_n_0_n_n_0_1_1 rfl rfl rfl rfl rfl rfl rfl]
  exact dinv2_apply x1 (dp (dstnW x1) e)

theorem norm2_apply (e : Fin 3300000) : val_main_v74 (F := Ideal) x1 (ix1 e) = GcnSpec.norm (dstW x1) (srcW x1) (dstnW x1) e := by
  rw [val_main_v74_apply, dsrc2_apply, ddst2_apply]
  unfold GcnSpec.norm
  generalize dv (dstW x1) (sp (srcW x1) e) = a
  generalize dv (dstW x1) (dp (dstnW x1) e) = b
  rfl

theorem msg2_apply (e : Fin 3300000) (q : Fin 2) :
    val_main_v85 (F := Ideal) x0 x1 x2 x3 x4 (ix2 e q)
      = GcnSpec.norm (dstW x1) (srcW x1) (dstnW x1) e * rHW (dstW x1) (srcW x1) (dstnW x1) x0 x2 x3 x4 (sp (srcW x1) e) q := by
  rw [val_main_v85_apply]
  have h84 : val_main_v84 (F := Ideal) x1 (ix2 e q) = val_main_v74 (F := Ideal) x1 (ix1 e) := by
    unfold val_main_v84
    rw [Cert.LibColumn.bcastInDim_a1_ab_apply _ bcast_S3300000x1_S3300000x2_0_1 e q]
    unfold val_main_v76
    exact Cert.LibColumn.bcastInDim_a_a1_apply _ bcast_S3300000_S3300000x1_0 e 0
  have h83 : val_main_v83 (F := Ideal) x0 x1 x2 x3 x4 (ix2 e q)
      = val_main_v75 (F := Ideal) x0 x1 x2 x3 x4 (ix2 (sp (srcW x1) e) q) := by
    unfold val_main_v83
    rw [v82_eq, gather_rows_apply (by decide) gather_S100000x2_S3300000x1_S3300000x2_1_0_n_n_0_1_12 rfl rfl rfl rfl rfl rfl rfl]
    rfl
  rw [h84, h83, norm2_apply, hw_apply]
  generalize GcnSpec.norm (dstW x1) (srcW x1) (dstnW x1) e = a
  generalize rHW (dstW x1) (srcW x1) (dstnW x1) x0 x2 x3 x4 (sp (srcW x1) e) q = b
  rfl

theorem agg2_apply (i : Fin 100000) (q : Fin 2) :
    val_main_v88 (F := Ideal) x0 x1 x2 x3 x4 (ix2 i q)
      = Ideal.ofBits .f32 0x00000000#32 + ∑ e ∈ inc (dstW x1) i,
          GcnSpec.norm (dstW x1) (srcW x1) (dstnW x1) e * rHW (dstW x1) (srcW x1) (dstnW x1) x0 x2 x3 x4 (sp (srcW x1) e) q := by
  unfold val_main_v88
  rw [v87_eq, scatterAdd_rows_apply scatter_S100000x2_S3300000x1_S3300000x2_1_0_0_1 rfl rfl rfl rfl]
  refine congrArg (fun s => Ideal.ofBits .f32 0x00000000#32 + s) ?_
  refine Finset.sum_congr rfl fun e _ => ?_
  exact msg2_apply x0 x1 x2 x3 x4 e q

theorem bias2_apply (i : Fin 100000) (q : Fin 2) : val_main_v90 (F := Ideal) x5 (ix2 i q) = x5 (ix1 q) := by
  unfold val_main_v90
  rw [Cert.LibColumn.bcastInDim_1b_ab_apply _ bcast_S1x2_S100000x2_0_1 i q]
  unfold val_main_v89
  exact Cert.LibColumn.bcastInDim_b_1b_apply x5 bcast_S2_S1x2_1 0 q

/-- THE RESULT AT (i, q). -/
theorem result_apply (i : Fin 100000) (q : Fin 2) :
    val_main_v91 (F := Ideal) x0 x1 x2 x3 x4 x5 (ix2 i q) = rOut (dstW x1) (srcW x1) (dstnW x1) x0 x2 x3 x4 x5 i q := by
  rw [val_main_v91_apply, agg2_apply, bias2_apply]
  unfold rOut
  generalize (∑ e ∈ inc (dstW x1) i, GcnSpec.norm (dstW x1) (srcW x1) (dstnW x1) e
    * rHW (dstW x1) (srcW x1) (dstnW x1) x0 x2 x3 x4 (sp (srcW x1) e) q) = s
  rfl

end Cert.ReferenceIdeal.RefValue

end
-- ==== Proof.Finite.lean ====
/-
  The precondition read back: every float argument holds real numbers.

  The precondition is the conjunction, over the five float arguments, of "every entry's absolute value is below +inf",
  each an all-reduction by `and` of an elementwise comparison. On the extended reals |x| < +inf says x is neither
  infinity, that is, x is a real number.
-/
import proofs.«165192_j47605417509108_2_alg».proof.Pre_finite_inputs
import Idealize.ShloMosaic.PureOps.Ideal
import Idealize.ShloMosaic.Lib.ReduceAll
import Idealize.ShloMosaic.Lib.ValueIdx
import proofs.«165192_j47605417509108_2_alg».proof.Proof.GcnAlgebra

noncomputable section

namespace Cert.FiniteInputs

open Idealize.ShloMosaic Cert.GcnAlgebra Cert.Pre_finite_inputs

/-- The word 0x7F800000 is +inf. -/
theorem ofBits_inf : Ideal.ofBits .f32 0x7F800000#32 = ⊤ := by simp [Ideal.ofBits, Ideal.ieee]

/-- An extended real whose absolute value is below +inf is a real number. -/
theorem isReal_of_abs_lt (x : EReal) (h : Ideal.cmp .olt (max x (-x)) (Ideal.ofBits .f32 0x7F800000#32) = 1#1) : IsReal x := by
  rw [ofBits_inf] at h
  have hlt : max x (-x) < ⊤ := by
    unfold Ideal.cmp at h
    by_contra hn
    rw [decide_eq_false hn] at h
    have h' : BitVec.ofBool false = 1#1 := h
    exact absurd h' (by decide)
  have hx : x ≠ ⊤ := fun e => by rw [e] at hlt; simp at hlt
  have hx' : x ≠ ⊥ := fun e => by rw [e] at hlt; simp at hlt
  exact ⟨x.toReal, (EReal.coe_toReal hx hx').symm⟩

instance : Subsingleton S_.Idx := ⟨fun a b => funext fun d => d.elim0⟩

variable [Facts]

/-- An all-reduction by `and` of "|x| < +inf" that is 1 says every entry of x is a real number. -/
theorem all_isReal {s : Shape} {axes : List (Fin s.rank)} (x : FVec Ideal s .f32) (b : FVec Ideal s .f32)
    (hb : ∀ j, b j = Ideal.ofBits .f32 0x7F800000#32) (hr : s.ReducesTo axes S_) (hu : 0 < S_.numel)
    (init : S_.Idx → BitVec 1)
    (e : Host.reduce IntOp.andi (cmpf .olt (Host.absf x) b) init hr hu ValueIdx.ix0 = 1#1) (j : s.Idx) : IsReal (x j) := by
  have h := Host.reduce_andi_all (cmpf .olt (Host.absf x) b) init hr hu ValueIdx.ix0 e j
  refine isReal_of_abs_lt (x j) ?_
  rw [← hb j]
  exact h

open Facts in
/-- THE PRECONDITION SAYS every float argument holds real numbers. -/
theorem isReal_of_pre (a0 : FVec Ideal S100000x1 .f32) (a1 : IVec S2x3200000 32) (a2 : FVec Ideal S1x16 .f32)
    (a3 : FVec Ideal S16 .f32) (a4 : FVec Ideal S16x2 .f32) (a5 : FVec Ideal S2 .f32)
    (h : fn (F := Ideal) a0 a1 a2 a3 a4 a5 = fun _ => 1#1) :
    (∀ j, IsReal (a0 j)) ∧ (∀ j, IsReal (a2 j)) ∧ (∀ j, IsReal (a3 j)) ∧ (∀ j, IsReal (a4 j)) ∧ (∀ j, IsReal (a5 j)) := by
  have h0 := congrFun h ValueIdx.ix0
  unfold fn fn_part1 at h0
  dsimp only at h0
  obtain ⟨h0123, h5⟩ := IntOp.andi_eq_one.1 h0
  obtain ⟨h012, h4⟩ := IntOp.andi_eq_one.1 h0123
  obtain ⟨h01, h3⟩ := IntOp.andi_eq_one.1 h012
  obtain ⟨h00, h2⟩ := IntOp.andi_eq_one.1 h01
  exact ⟨all_isReal a0 _ (fun _ => rfl) _ _ _ h00, all_isReal a2 _ (fun _ => rfl) _ _ _ h2,
    all_isReal a3 _ (fun _ => rfl) _ _ _ h3, all_isReal a4 _ (fun _ => rfl) _ _ _ h4, all_isReal a5 _ (fun _ => rfl) _ _ _ h5⟩

end Cert.FiniteInputs

end
-- ==== Proof.Bridge.lean ====
/-
  The two programs' results are one array.

  The kernel program's result is the scale–aggregate–scale arrangement over its destination and source words; the
  reference's is the weight-each-edge arrangement over its own. The two programs build those words from the edge list by
  the same operations, so the word columns are equal arrays; an edge landing at a node is gathered from it; and under the
  precondition every feature, weight and bias is a real number. So the two arrangements agree element by element.
-/
import proofs.«165192_j47605417509108_2_alg».proof.Proof.KRead
import proofs.«165192_j47605417509108_2_alg».proof.Proof.RefValue
import proofs.«165192_j47605417509108_2_alg».proof.Proof.Finite

set_option maxRecDepth 16384

noncomputable section

namespace Cert.Bridge

open Idealize.ShloMosaic Idealize.ShloMosaic.ValueIdx Cert.GcnAlgebra Cert.GcnSpec

/-- The two programs' destination word columns are one array. -/
theorem dst_eq (a1 : IVec ⟨2, ![2, 3200000]⟩ 32) :
    Cert.KernelIdeal.KValue.dstIdx a1 = Cert.ReferenceIdeal.RefValue.dstW a1 := rfl
/-- The two programs' source word columns are one array. -/
theorem src_eq (a1 : IVec ⟨2, ![2, 3200000]⟩ 32) :
    Cert.KernelIdeal.KValue.srcIdx a1 = Cert.ReferenceIdeal.RefValue.srcW a1 := rfl

/-- THE RESULTS AGREE: for real features, weights and biases the reference's result array is the kernel program's. -/
theorem result_eq (a0 : (⟨2, ![100000, 1]⟩ : Shape).Idx → EReal) (a1 : IVec ⟨2, ![2, 3200000]⟩ 32)
    (a2 : (⟨2, ![1, 16]⟩ : Shape).Idx → EReal) (a3 : (⟨1, ![16]⟩ : Shape).Idx → EReal)
    (a4 : (⟨2, ![16, 2]⟩ : Shape).Idx → EReal) (a5 : (⟨1, ![2]⟩ : Shape).Idx → EReal)
    (h0 : ∀ j, IsReal (a0 j)) (h2 : ∀ j, IsReal (a2 j)) (h3 : ∀ j, IsReal (a3 j)) (h4 : ∀ j, IsReal (a4 j)) :
    Cert.ReferenceIdeal.ReadP.val_main_v91 (F := Ideal) a0 a1 a2 a3 a4 a5
      = Cert.KernelIdeal.KValue.result a0 a1 a2 a3 a4 a5 := by
  funext j
  obtain ⟨i, q, rfl⟩ : ∃ (i : Fin 100000) (q : Fin 2), j = ix2 i q := ⟨j 0, j 1, eq_ix2 j⟩
  rw [Cert.ReferenceIdeal.RefValue.result_apply, Cert.KernelIdeal.KRead.result_apply, dst_eq, src_eq]
  exact (kOut_eq_rOut (Cert.ReferenceIdeal.RefValue.dstW a1) (Cert.ReferenceIdeal.RefValue.srcW a1)
    (Cert.ReferenceIdeal.RefValue.dstnW a1) a0 a2 a3 a4 a5 (Cert.ReferenceIdeal.RefValue.dst_wrap a1) h0 h2 h3 h4 i q).symm

end Cert.Bridge

end
-- ==== Proof.lean ====
/-
  The certificate of a two-layer graph convolution in four pipelined regions against its plain reference.

  Three frames: the two kernel programs' are the generated frame proofs; the reference has no kernel, and its frame is its
  run with the result dropped. The idealization rewrote nothing, so `preserves` has no conjunct. For `algebraic`: the kernel
  program's run ends with its result at one function of the arguments (the run with the result named, opened boundary by
  boundary into `KValue.result`), the reference's run ends at its composed term (`val_main_v91`), and under the
  precondition — every float argument real — the two are one array (`Bridge.result_eq`): scaling the node features by the
  inverse square root of the degree before and after the neighbour sum is weighting every edge by the product of the two
  endpoints' inverse square roots, and the linear layer commutes with the sum.
-/
import proofs.«165192_j47605417509108_2_alg».proof.Defs
import proofs.«165192_j47605417509108_2_alg».proof.Proof.Gen.Kernel
import proofs.«165192_j47605417509108_2_alg».proof.Proof.Gen.Kernel.Skeleton
import proofs.«165192_j47605417509108_2_alg».proof.Proof.Gen.Kernel.Launch
import proofs.«165192_j47605417509108_2_alg».proof.Proof.Gen.Kernel.Points
import proofs.«165192_j47605417509108_2_alg».proof.Proof.Gen.Kernel.Frame
import proofs.«165192_j47605417509108_2_alg».proof.Proof.Gen.KernelIdeal
import proofs.«165192_j47605417509108_2_alg».proof.Proof.Gen.KernelIdeal.Skeleton
import proofs.«165192_j47605417509108_2_alg».proof.Proof.Gen.KernelIdeal.Launch
import proofs.«165192_j47605417509108_2_alg».proof.Proof.Gen.KernelIdeal.Points
import proofs.«165192_j47605417509108_2_alg».proof.Proof.Gen.KernelIdeal.Frame
import proofs.«165192_j47605417509108_2_alg».proof.Proof.Gen.ReferenceIdeal
import proofs.«165192_j47605417509108_2_alg».proof.Proof.Gen.Pre_finite_inputs
import proofs.«165192_j47605417509108_2_alg».proof.Proof.KRun
import proofs.«165192_j47605417509108_2_alg».proof.Proof.Bridge
import Idealize.ShloMosaic.Adequacy
import Idealize.ShloMosaic.Init

noncomputable section

namespace Cert.Proof

open Idealize.ShloMosaic Idealize.ShloMosaic.TcCoe Idealize.SL.Sem

section Claims

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Run from memories that agree on the arguments, every float argument real, the two idealized programs end with one
    result array. -/
theorem algebraic : Cert.algebraic_KernelIdeal_ReferenceIdeal := by
  intro m ρ m' ρ' hpre hagree
  refine ⟨fun c => Cert.KernelIdeal.KValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.W7_v37 m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h2, h3, h4, h5⟩ := Cert.FiniteInputs.isReal_of_pre _ _ _ _ _ _ (hpre c)
    rw [Cert.ReferenceIdeal.ReadP.val_main_v91_eq, (hagree c).1, (hagree c).2.1, (hagree c).2.2.1, (hagree c).2.2.2.1,
      (hagree c).2.2.2.2.1, (hagree c).2.2.2.2.2]
    exact Cert.Bridge.result_eq _ _ _ _ _ _ h0 h2 h3 h4

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
